-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x200x512 : Shape := ⟨3, ![8, 200, 512]⟩
abbrev S8x50x512 : Shape := ⟨3, ![8, 50, 512]⟩
abbrev S512x640 : Shape := ⟨2, ![512, 640]⟩
abbrev S640 : Shape := ⟨1, ![640]⟩
abbrev S640x1024 : Shape := ⟨2, ![640, 1024]⟩
abbrev S1024 : Shape := ⟨1, ![1024]⟩
abbrev S_ : Shape := ⟨0, ![]⟩

class Facts : Prop where
  bcast_S_S8x200x512 : S_.BroadcastsInDim S8x200x512 (![] : Fin 0 → Fin S8x200x512.rank)
  reducesTo_S8x200x512_S_d0_1_2 : S8x200x512.ReducesTo [0, 1, 2] S_
  h_S_ : 0 < S_.numel
  bcast_S_S8x50x512 : S_.BroadcastsInDim S8x50x512 (![] : Fin 0 → Fin S8x50x512.rank)
  reducesTo_S8x50x512_S_d0_1_2 : S8x50x512.ReducesTo [0, 1, 2] S_
  bcast_S_S512x640 : S_.BroadcastsInDim S512x640 (![] : Fin 0 → Fin S512x640.rank)
  reducesTo_S512x640_S_d0_1 : S512x640.ReducesTo [0, 1] S_
  bcast_S_S640 : S_.BroadcastsInDim S640 (![] : Fin 0 → Fin S640.rank)
  reducesTo_S640_S_d0 : S640.ReducesTo [0] S_
  bcast_S_S640x1024 : S_.BroadcastsInDim S640x1024 (![] : Fin 0 → Fin S640x1024.rank)
  reducesTo_S640x1024_S_d0_1 : S640x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S640x1024 .f32) (main_arg5 : FVec F S1024 .f32) (main_v13 : IVec S_ 1) (main_v16 : IVec S640 1) : IVec S_ 1 :=
  let main_c_5 : IVec S_ 1 := constantI S_ 1 1#1
  let main_v17 : IVec S_ 1 := (fun x v => Host.reduce IntOp.andi x v reducesTo_S640_S_d0 h_S_) main_v16 main_c_5
  let main_v18 : IVec S_ 1 := andi main_v13 main_v17
  let main_v19 : FVec F S640x1024 .f32 := Host.absf main_arg4
  let main_cst_6 : FVec F S_ .f32 := constant S_ .f32 0x7F800000#32
  let main_v20 : FVec F S640x1024 .f32 := broadcastInDim S640x1024 ![] bcast_S_S640x1024 main_cst_6
  let main_v21 : IVec S640x1024 1 := cmpf .olt main_v19 main_v20
  let main_c_7 : IVec S_ 1 := constantI S_ 1 1#1
  let main_v22 : IVec S_ 1 := (fun x v => Host.reduce IntOp.andi x v reducesTo_S640x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S8x200x512 .f32) (main_arg1 : FVec F S8x50x512 .f32) (main_arg2 : FVec F S512x640 .f32) (main_arg3 : FVec F S640 .f32) (main_arg4 : FVec F S640x1024 .f32) (main_arg5 : FVec F S1024 .f32) : IVec S_ 1 :=
  let main_v0 : FVec F S8x200x512 .f32 := Host.absf main_arg0
  let main_cst : FVec F S_ .f32 := constant S_ .f32 0x7F800000#32
  let main_v1 : FVec F S8x200x512 .f32 := broadcastInDim S8x200x512 ![] bcast_S_S8x200x512 main_cst
  let main_v2 : IVec S8x200x512 1 := cmpf .olt main_v0 main_v1
  let main_c : IVec S_ 1 := constantI S_ 1 1#1
  let main_v3 : IVec S_ 1 := (fun x v => Host.reduce IntOp.andi x v reducesTo_S8x200x512_S_d0_1_2 h_S_) main_v2 main_c
  let main_v4 : FVec F S8x50x512 .f32 := Host.absf main_arg1
  let main_cst_0 : FVec F S_ .f32 := constant S_ .f32 0x7F800000#32
  let main_v5 : FVec F S8x50x512 .f32 := broadcastInDim S8x50x512 ![] bcast_S_S8x50x512 main_cst_0
  let main_v6 : IVec S8x50x512 1 := cmpf .olt main_v4 main_v5
  let main_c_1 : IVec S_ 1 := constantI S_ 1 1#1
  let main_v7 : IVec S_ 1 := (fun x v => Host.reduce IntOp.andi x v reducesTo_S8x50x512_S_d0_1_2 h_S_) main_v6 main_c_1
  let main_v8 : IVec S_ 1 := andi main_v3 main_v7
  let main_v9 : FVec F S512x640 .f32 := Host.absf main_arg2
  let main_cst_2 : FVec F S_ .f32 := constant S_ .f32 0x7F800000#32
  let main_v10 : FVec F S512x640 .f32 := broadcastInDim S512x640 ![] bcast_S_S512x640 main_cst_2
  let main_v11 : IVec S512x640 1 := cmpf .olt main_v9 main_v10
  let main_c_3 : IVec S_ 1 := constantI S_ 1 1#1
  let main_v12 : IVec S_ 1 := (fun x v => Host.reduce IntOp.andi x v reducesTo_S512x640_S_d0_1 h_S_) main_v11 main_c_3
  let main_v13 : IVec S_ 1 := andi main_v8 main_v12
  let main_v14 : FVec F S640 .f32 := Host.absf main_arg3
  let main_cst_4 : FVec F S_ .f32 := constant S_ .f32 0x7F800000#32
  let main_v15 : FVec F S640 .f32 := broadcastInDim S640 ![] bcast_S_S640 main_cst_4
  let main_v16 : IVec S640 1 := cmpf .olt main_v14 main_v15
  fn_part1 (F := F) main_arg4 main_arg5 main_v13 main_v16
-- ==== Kernel.lean ====
abbrev S8x200x512 : Shape := ⟨3, ![8, 200, 512]⟩
abbrev S8x50x512 : Shape := ⟨3, ![8, 50, 512]⟩
abbrev S512x640 : Shape := ⟨2, ![512, 640]⟩
abbrev S640 : Shape := ⟨1, ![640]⟩
abbrev S640x1024 : Shape := ⟨2, ![640, 1024]⟩
abbrev S1024 : Shape := ⟨1, ![1024]⟩
abbrev S_ : Shape := ⟨0, ![]⟩
abbrev S8x56x512 : Shape := ⟨3, ![8, 56, 512]⟩
abbrev S8x200x50x1024 : Shape := ⟨4, ![8, 200, 50, 1024]⟩
abbrev S1x40x512 : Shape := ⟨3, ![1, 40, 512]⟩
abbrev S1x56x512 : Shape := ⟨3, ![1, 56, 512]⟩
abbrev S1x40x50x1024 : Shape := ⟨4, ![1, 40, 50, 1024]⟩
abbrev S40x640 : Shape := ⟨2, ![40, 640]⟩
abbrev S40x512 : Shape := ⟨2, ![40, 512]⟩
abbrev S56x512 : Shape := ⟨2, ![56, 512]⟩
abbrev S56x640 : Shape := ⟨2, ![56, 640]⟩
abbrev S8x640 : Shape := ⟨2, ![8, 640]⟩
abbrev S8x1x640 : Shape := ⟨3, ![8, 1, 640]⟩
abbrev S1x56x640 : Shape := ⟨3, ![1, 56, 640]⟩
abbrev S8x56x640 : Shape := ⟨3, ![8, 56, 640]⟩
abbrev S1x1x640 : Shape := ⟨3, ![1, 1, 640]⟩
abbrev S448x640 : Shape := ⟨2, ![448, 640]⟩
abbrev S448x1024 : Shape := ⟨2, ![448, 1024]⟩
abbrev S8x56x1024 : Shape := ⟨3, ![8, 56, 1024]⟩
abbrev S1x1x1024 : Shape := ⟨3, ![1, 1, 1024]⟩
abbrev S8x50x1024 : Shape := ⟨3, ![8, 50, 1024]⟩
abbrev S1x8x50x1024 : Shape := ⟨4, ![1, 8, 50, 1024]⟩

abbrev nBuf : Space → Nat
  | .hbm => 12
  | .vmem => 11
  | .smem => 0
  | _ => 0

abbrev bufTy : (tb : Table) → Fin (tcTables nBuf tb) → BufTy
  | .hbm, ⟨0, _⟩ => ⟨S8x200x512, .f32⟩
  | .hbm, ⟨1, _⟩ => ⟨S8x50x512, .f32⟩
  | .hbm, ⟨2, _⟩ => ⟨S512x640, .f32⟩
  | .hbm, ⟨3, _⟩ => ⟨S640, .f32⟩
  | .hbm, ⟨4, _⟩ => ⟨S640x1024, .f32⟩
  | .hbm, ⟨5, _⟩ => ⟨S1024, .f32⟩
  | .hbm, ⟨6, _⟩ => ⟨S_, .i32⟩
  | .hbm, ⟨7, _⟩ => ⟨S_, .f32⟩
  | .hbm, ⟨8, _⟩ => ⟨S8x56x512, .f32⟩
  | .hbm, ⟨9, _⟩ => ⟨S512x640, .bf16⟩
  | .hbm, ⟨10, _⟩ => ⟨S640x1024, .bf16⟩
  | .hbm, ⟨11, _⟩ => ⟨S8x200x50x1024, .f32⟩
  | .local _ .vmem, ⟨0, _⟩ => ⟨S1x40x512, .f32⟩
  | .local _ .vmem, ⟨1, _⟩ => ⟨S1x40x512, .f32⟩
  | .local _ .vmem, ⟨2, _⟩ => ⟨S1x56x512, .f32⟩
  | .local _ .vmem, ⟨3, _⟩ => ⟨S1x56x512, .f32⟩
  | .local _ .vmem, ⟨4, _⟩ => ⟨S512x640, .bf16⟩
  | .local _ .vmem, ⟨5, _⟩ => ⟨S640, .f32⟩
  | .local _ .vmem, ⟨6, _⟩ => ⟨S640x1024, .bf16⟩
  | .local _ .vmem, ⟨7, _⟩ => ⟨S1024, .f32⟩
  | .local _ .vmem, ⟨8, _⟩ => ⟨S1x40x50x1024, .f32⟩
  | .local _ .vmem, ⟨9, _⟩ => ⟨S1x40x50x1024, .f32⟩
  | .local _ .vmem, ⟨10, _⟩ => ⟨S40x640, .f32⟩
  | _, _ => ⟨S8x200x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![8, 5], ![false, false]⟩

@[reducible] def k0_t1_loop : Scf.Loop 32 :=
  let c0_i32 : BitVec 32 := 0#32
  let c5_i32 : BitVec 32 := 5#32
  let v17 : BitVec 32 := Scalar.addi c0_i32 c5_i32
  let c1_i32 : BitVec 32 := 1#32
  ⟨c0_i32, v17, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c8_i32 : BitVec 32 := 8#32
  let v18 : BitVec 32 := Scalar.muli arg10 c8_i32
  v18
def k0_off1 (k0_t1 : Fin k0_t1_loop.trips) : Fin 2 → Nat :=
  let c0_i32 : BitVec 32 := 0#32
  let c1_i32 : BitVec 32 := 1#32
  let arg10 : BitVec 32 := Scf.iv c0_i32 c1_i32 k0_t1
  let c8_i32 : BitVec 32 := 8#32
  let v18 : BitVec 32 := Scalar.muli arg10 c8_i32
  let v19 : BitVec 32 := v18
  let v20 : Index := Scalar.indexCast v19
  let c0_15 : Index := 0#32
  ![v20.toNat, 0]
def k0_off2 (k0_t1 : Fin k0_t1_loop.trips) : Fin 4 → Nat :=
  let c0_17 : Index := 0#32
  let c0_i32 : BitVec 32 := 0#32
  let c1_i32 : BitVec 32 := 1#32
  let arg10 : BitVec 32 := Scf.iv c0_i32 c1_i32 k0_t1
  let c8_i32 : BitVec 32 := 8#32
  let v18 : BitVec 32 := Scalar.muli arg10 c8_i32
  let v19 : BitVec 32 := v18
  let v39 : Index := Scalar.indexCast v19
  let c0_18 : Index := 0#32
  let c0_19 : Index := 0#32
  ![0, v39.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x40x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x56x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512x640 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S640 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S640x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x40x50x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  pads_S8x50x512_S8x56x512_000_060_000 : S8x50x512.Pads (![0, 0, 0] : Fin 3 → Nat) ![0, 6, 0] ![0, 0, 0] S8x56x512
  h_S_ : 0 < S_.numel
  bitsLt_bf16_f32 : FTy.bits .bf16 < FTy.bits .f32
  inb_S512x640_S512x640_0_0 : ∀ a, (![0, 0] : Fin 2 → Nat) a + S512x640.size a ≤ S512x640.size a
  h_S512x640 : 0 < S512x640.numel
  shapeCasts_S512x640_S512x640 : S512x640.ShapeCasts S512x640
  inb_S640x1024_S640x1024_0_0 : ∀ a, (![0, 0] : Fin 2 → Nat) a + S640x1024.size a ≤ S640x1024.size a
  h_S640x1024 : 0 < S640x1024.numel
  shapeCasts_S640x1024_S640x1024 : S640x1024.ShapeCasts S640x1024
  inb_S640_S640_0 : ∀ a, (![0] : Fin 1 → Nat) a + S640.size a ≤ S640.size a
  h_S640 : 0 < S640.numel
  inb_S1024_S1024_0 : ∀ a, (![0] : Fin 1 → Nat) a + S1024.size a ≤ S1024.size a
  h_S1024 : 0 < S1024.numel
  inb_S1x40x512_S1x40x512_0_0_0 : ∀ a, (![0, 0, 0] : Fin 3 → Nat) a + S1x40x512.size a ≤ S1x40x512.size a
  h_S1x40x512 : 0 < S1x40x512.numel
  shapeCasts_S1x40x512_S40x512 : S1x40x512.ShapeCasts S40x512
  inb_S1x56x512_S1x56x512_0_0_0 : ∀ a, (![0, 0, 0] : Fin 3 → Nat) a + S1x56x512.size a ≤ S1x56x512.size a
  h_S1x56x512 : 0 < S1x56x512.numel
  shapeCasts_S1x56x512_S56x512 : S1x56x512.ShapeCasts S56x512
  inb_S40x640_S40x640_0_0 : ∀ a, (![0, 0] : Fin 2 → Nat) a + S40x640.size a ≤ S40x640.size a
  h_S40x640 : 0 < S40x640.numel
  shapeCasts_S40x640_S40x640 : S40x640.ShapeCasts S40x640
  h_S8x640 : 0 < S8x640.numel
  shapeCasts_S8x640_S8x1x640 : S8x640.ShapeCasts S8x1x640
  shapeCasts_S56x640_S1x56x640 : S56x640.ShapeCasts S1x56x640
  broadcasts_S8x1x640_S8x56x640 : S8x1x640.Broadcasts S8x56x640
  broadcasts_S1x56x640_S8x56x640 : S1x56x640.Broadcasts S8x56x640
  shapeCasts_S640_S1x1x640 : S640.ShapeCasts S1x1x640
  broadcasts_S1x1x640_S8x56x640 : S1x1x640.Broadcasts S8x56x640
  shapeCasts_S8x56x640_S448x640 : S8x56x640.ShapeCasts S448x640
  shapeCasts_S448x1024_S8x56x1024 : S448x1024.ShapeCasts S8x56x1024
  shapeCasts_S1024_S1x1x1024 : S1024.ShapeCasts S1x1x1024
  broadcasts_S1x1x1024_S8x56x1024 : S1x1x1024.Broadcasts S8x56x1024
  slices_S8x56x1024_o0_0_0_S8x50x1024 : S8x56x1024.Slices ![0, 0, 0] S8x50x1024
  h_S1x8x50x1024 : 0 < S1x8x50x1024.numel
  shapeCasts_S1x8x50x1024_S8x50x1024 : S1x8x50x1024.ShapeCasts S8x50x1024
  shapeCasts_S8x50x1024_S1x8x50x1024 : S8x50x1024.ShapeCasts S1x8x50x1024
  dot_S40x512_S512x640_S40x640_1_0_0_1_n_n_wf : DotDims.WF S40x512 S512x640 S40x640 [1] [0] [0] [1] [] []
  dot_S56x512_S512x640_S56x640_1_0_0_1_n_n_wf : DotDims.WF S56x512 S512x640 S56x640 [1] [0] [0] [1] [] []
  dot_S448x640_S640x1024_S448x1024_1_0_0_1_n_n_wf : DotDims.WF S448x640 S640x1024 S448x1024 [1] [0] [0] [1] [] []
  hrank0 : 0 < grid0.rank
  k0_t1_ok : k0_t1_loop.OK
  k0_mult1_dvd : ∀ k0_t1 : Fin k0_t1_loop.trips, 8 ∣ (k0_mult1 k0_t1).toNat
  k0_off1_inb : ∀ k0_t1 : Fin k0_t1_loop.trips, ∀ a, (k0_off1 k0_t1) a + S8x640.size a ≤ S40x640.size a
  k0_off2_inb : ∀ k0_t1 : Fin k0_t1_loop.trips, ∀ a, (k0_off2 k0_t1) a + S1x8x50x1024.size a ≤ S1x40x50x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x40x512.size a ≤ S8x200x512.size a
  hwx0_0 : ∀ i : grid0.Coords, EltTy.bits .f32 = 32 ∨ (Rect.block (s := S8x200x512) S1x40x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x56x512.size a ≤ S8x56x512.size a
  hwx0_1 : ∀ i : grid0.Coords, EltTy.bits .f32 = 32 ∨ (Rect.block (s := S8x56x512) S1x56x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x640.size a ≤ S512x640.size a
  hwx0_2 : ∀ i : grid0.Coords, EltTy.bits .bf16 = 32 ∨ (Rect.block (s := S512x640) S512x640.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S640.size a ≤ S640.size a
  hwx0_3 : ∀ i : grid0.Coords, EltTy.bits .f32 = 32 ∨ (Rect.block (s := S640) S640.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S640x1024.size a ≤ S640x1024.size a
  hwx0_4 : ∀ i : grid0.Coords, EltTy.bits .bf16 = 32 ∨ (Rect.block (s := S640x1024) S640x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S1024.size a
  hwx0_5 : ∀ i : grid0.Coords, EltTy.bits .f32 = 32 ∨ (Rect.block (s := S1024) S1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x40x50x1024.size a ≤ S8x200x50x1024.size a
  hwx0_6 : ∀ i : grid0.Coords, EltTy.bits .f32 = 32 ∨ (Rect.block (s := S8x200x50x1024) S1x40x50x1024.size (cc0_transform_6 i) (hinb0_6 i)).WholeWords (EltTy.packing .f32)

variable [Facts₀]

def dot_S40x512_S512x640_S40x640_1_0_0_1_n_n : DotDims S40x512 S512x640 S40x640 where
  lhsContracting := [1]
  rhsContracting := [0]
  lhsNonContracting := [0]
  rhsNonContracting := [1]
  lhsBatch := []
  rhsBatch := []
  wf := dot_S40x512_S512x640_S40x640_1_0_0_1_n_n_wf
def dot_S56x512_S512x640_S56x640_1_0_0_1_n_n : DotDims S56x512 S512x640 S56x640 where
  lhsContracting := [1]
  rhsContracting := [0]
  lhsNonContracting := [0]
  rhsNonContracting := [1]
  lhsBatch := []
  rhsBatch := []
  wf := dot_S56x512_S512x640_S56x640_1_0_0_1_n_n_wf
def dot_S448x640_S640x1024_S448x1024_1_0_0_1_n_n : DotDims S448x640 S640x1024 S448x1024 where
  lhsContracting := [1]
  rhsContracting := [0]
  lhsNonContracting := [0]
  rhsNonContracting := [1]
  lhsBatch := []
  rhsBatch := []
  wf := dot_S448x640_S640x1024_S448x1024_1_0_0_1_n_n_wf

abbrev win0_0 : Pipeline.Window sig grid0 :=
  Pipeline.Window.ofSpec (Memref.whole main_arg0) S1x40x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x56x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x640.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S640.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S640x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x40x50x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x200x512 : Shape := ⟨3, ![8, 200, 512]⟩
abbrev S8x50x512 : Shape := ⟨3, ![8, 50, 512]⟩
abbrev S512x640 : Shape := ⟨2, ![512, 640]⟩
abbrev S640 : Shape := ⟨1, ![640]⟩
abbrev S640x1024 : Shape := ⟨2, ![640, 1024]⟩
abbrev S1024 : Shape := ⟨1, ![1024]⟩
abbrev S8x200x1x512 : Shape := ⟨4, ![8, 200, 1, 512]⟩
abbrev S8x1x50x512 : Shape := ⟨4, ![8, 1, 50, 512]⟩
abbrev S8x200x50x512 : Shape := ⟨4, ![8, 200, 50, 512]⟩
abbrev S8x200x50x640 : Shape := ⟨4, ![8, 200, 50, 640]⟩
abbrev S1x1x1x640 : Shape := ⟨4, ![1, 1, 1, 640]⟩
abbrev S8x200x50x1024 : Shape := ⟨4, ![8, 200, 50, 1024]⟩
abbrev S1x1x1x1024 : Shape := ⟨4, ![1, 1, 1, 1024]⟩

abbrev nBuf : Space → Nat
  | .hbm => 20
  | .vmem => 0
  | .smem => 0
  | _ => 0

abbrev bufTy : (tb : Table) → Fin (tcTables nBuf tb) → BufTy
  | .hbm, ⟨0, _⟩ => ⟨S8x200x512, .f32⟩
  | .hbm, ⟨1, _⟩ => ⟨S8x50x512, .f32⟩
  | .hbm, ⟨2, _⟩ => ⟨S512x640, .f32⟩
  | .hbm, ⟨3, _⟩ => ⟨S640, .f32⟩
  | .hbm, ⟨4, _⟩ => ⟨S640x1024, .f32⟩
  | .hbm, ⟨5, _⟩ => ⟨S1024, .f32⟩
  | .hbm, ⟨6, _⟩ => ⟨S8x200x1x512, .f32⟩
  | .hbm, ⟨7, _⟩ => ⟨S8x1x50x512, .f32⟩
  | .hbm, ⟨8, _⟩ => ⟨S8x200x50x512, .f32⟩
  | .hbm, ⟨9, _⟩ => ⟨S8x200x50x512, .f32⟩
  | .hbm, ⟨10, _⟩ => ⟨S8x200x50x512, .f32⟩
  | .hbm, ⟨11, _⟩ => ⟨S8x200x50x640, .f32⟩
  | .hbm, ⟨12, _⟩ => ⟨S1x1x1x640, .f32⟩
  | .hbm, ⟨13, _⟩ => ⟨S8x200x50x640, .f32⟩
  | .hbm, ⟨14, _⟩ => ⟨S8x200x50x640, .f32⟩
  | .hbm, ⟨15, _⟩ => ⟨S8x200x50x640, .f32⟩
  | .hbm, ⟨16, _⟩ => ⟨S8x200x50x1024, .f32⟩
  | .hbm, ⟨17, _⟩ => ⟨S1x1x1x1024, .f32⟩
  | .hbm, ⟨18, _⟩ => ⟨S8x200x50x1024, .f32⟩
  | .hbm, ⟨19, _⟩ => ⟨S8x200x50x1024, .f32⟩
  | _, _ => ⟨S8x200x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  bcast_S8x200x512_S8x200x1x512_0_1_3 : S8x200x512.BroadcastsInDim S8x200x1x512 (![0, 1, 3] : Fin 3 → Fin S8x200x1x512.rank)
  bcast_S8x50x512_S8x1x50x512_0_2_3 : S8x50x512.BroadcastsInDim S8x1x50x512 (![0, 2, 3] : Fin 3 → Fin S8x1x50x512.rank)
  bcast_S8x200x1x512_S8x200x50x512_0_1_2_3 : S8x200x1x512.BroadcastsInDim S8x200x50x512 (![0, 1, 2, 3] : Fin 4 → Fin S8x200x50x512.rank)
  bcast_S8x1x50x512_S8x200x50x512_0_1_2_3 : S8x1x50x512.BroadcastsInDim S8x200x50x512 (![0, 1, 2, 3] : Fin 4 → Fin S8x200x50x512.rank)
  bcast_S640_S1x1x1x640_3 : S640.BroadcastsInDim S1x1x1x640 (![3] : Fin 1 → Fin S1x1x1x640.rank)
  bcast_S1x1x1x640_S8x200x50x640_0_1_2_3 : S1x1x1x640.BroadcastsInDim S8x200x50x640 (![0, 1, 2, 3] : Fin 4 → Fin S8x200x50x640.rank)
  bcast_S1024_S1x1x1x1024_3 : S1024.BroadcastsInDim S1x1x1x1024 (![3] : Fin 1 → Fin S1x1x1x1024.rank)
  bcast_S1x1x1x1024_S8x200x50x1024_0_1_2_3 : S1x1x1x1024.BroadcastsInDim S8x200x50x1024 (![0, 1, 2, 3] : Fin 4 → Fin S8x200x50x1024.rank)
  dot_S8x200x50x512_S512x640_S8x200x50x640_3_0_012_1_n_n_wf : DotDims.WF S8x200x50x512 S512x640 S8x200x50x640 [3] [0] [0, 1, 2] [1] [] []
  dot_S8x200x50x640_S640x1024_S8x200x50x1024_3_0_012_1_n_n_wf : DotDims.WF S8x200x50x640 S640x1024 S8x200x50x1024 [3] [0] [0, 1, 2] [1] [] []

variable [Facts₀]

def dot_S8x200x50x512_S512x640_S8x200x50x640_3_0_012_1_n_n : DotDims S8x200x50x512 S512x640 S8x200x50x640 where
  lhsContracting := [3]
  rhsContracting := [0]
  lhsNonContracting := [0, 1, 2]
  rhsNonContracting := [1]
  lhsBatch := []
  rhsBatch := []
  wf := dot_S8x200x50x512_S512x640_S8x200x50x640_3_0_012_1_n_n_wf
def dot_S8x200x50x640_S640x1024_S8x200x50x1024_3_0_012_1_n_n : DotDims S8x200x50x640 S640x1024 S8x200x50x1024 where
  lhsContracting := [3]
  rhsContracting := [0]
  lhsNonContracting := [0, 1, 2]
  rhsNonContracting := [1]
  lhsBatch := []
  rhsBatch := []
  wf := dot_S8x200x50x640_S640x1024_S8x200x50x1024_3_0_012_1_n_n_wf

class Facts : Prop extends Facts₀ where

variable [Facts]
-- ==== Proof.Spec.lean ====
/-
  The joint network's result as one function of the argument arrays, index by index, over the extended reals.

  For a batch `b`, an encoder step `t`, a decoder step `u` and a vocabulary entry `v` the result is
    `(∑ h, tanh (pre b t u h) · W2[h, v]) + b2[v]`,
  where the hidden pre-activation `pre b t u h` is written in two ways:
    * projected first  — `(∑ d, enc[b,t,d] · W1[d,h]) + (∑ d, dec[b,u,d] · W1[d,h]) + b1[h]`  (`preSplit`),
    * joined first     — `(∑ d, (enc[b,t,d] + dec[b,u,d]) · W1[d,h]) + b1[h]`                 (`preJoint`).
  The two agree when `enc`, `dec` and `W1` hold real numbers: on the reals `(x + y) · w = x · w + y · w`, term by
  term, and a sum of sums is the sum of the sums. (On the extended reals the law fails at the infinities, which is
  why the hypothesis is there.)
-/
import Idealize.ShloMosaic.PureOps.Ideal
import Idealize.ShloMosaic.Lib.ValueIdx

noncomputable section

namespace Cert.Joint

open Idealize.ShloMosaic Idealize.ShloMosaic.ValueIdx
open scoped BigOperators

/-- The argument arrays' and the result's shapes. -/
abbrev SEnc : Shape := ⟨3, ![8, 200, 512]⟩
abbrev SDec : Shape := ⟨3, ![8, 50, 512]⟩
abbrev SW1 : Shape := ⟨2, ![512, 640]⟩
abbrev SB1 : Shape := ⟨1, ![640]⟩
abbrev SW2 : Shape := ⟨2, ![640, 1024]⟩
abbrev SB2 : Shape := ⟨1, ![1024]⟩
abbrev SOut : Shape := ⟨4, ![8, 200, 50, 1024]⟩

/-- An array all of whose entries are real numbers. -/
def AllReal {S : Shape} (x : S.Idx → EReal) : Prop := ∀ j, ∃ r : ℝ, x j = (r : EReal)

/-- The hidden pre-activation, each input projected by `W1` first. -/
def preSplit (enc : SEnc.Idx → EReal) (dec : SDec.Idx → EReal) (W1 : SW1.Idx → EReal) (b1 : SB1.Idx → EReal)
    (b : Fin 8) (t : Fin 200) (u : Fin 50) (h : Fin 640) : EReal :=
  (∑ d : Fin 512, enc (ix3 b t d) * W1 (ix2 d h)) + (∑ d : Fin 512, dec (ix3 b u d) * W1 (ix2 d h)) + b1 (ix1 h)

/-- The hidden pre-activation, the inputs joined first. -/
def preJoint (enc : SEnc.Idx → EReal) (dec : SDec.Idx → EReal) (W1 : SW1.Idx → EReal) (b1 : SB1.Idx → EReal)
    (b : Fin 8) (t : Fin 200) (u : Fin 50) (h : Fin 640) : EReal :=
  (∑ d : Fin 512, (enc (ix3 b t d) + dec (ix3 b u d)) * W1 (ix2 d h)) + b1 (ix1 h)

/-- The logits over a given pre-activation, at coordinates. -/
def logitsAt (pre : Fin 8 → Fin 200 → Fin 50 → Fin 640 → EReal) (W2 : SW2.Idx → EReal) (b2 : SB2.Idx → EReal)
    (b : Fin 8) (t : Fin 200) (u : Fin 50) (v : Fin 1024) : EReal :=
  (∑ h : Fin 640, Ideal.tanh (pre b t u h) * W2 (ix2 h v)) + b2 (ix1 v)

/-- The result array, projected-first form. -/
def outSplit (enc : SEnc.Idx → EReal) (dec : SDec.Idx → EReal) (W1 : SW1.Idx → EReal) (b1 : SB1.Idx → EReal)
    (W2 : SW2.Idx → EReal) (b2 : SB2.Idx → EReal) : SOut.Idx → EReal :=
  fun i => logitsAt (preSplit enc dec W1 b1) W2 b2 (i 0) (i 1) (i 2) (i 3)

/-- The result array, joined-first form. -/
def outJoint (enc : SEnc.Idx → EReal) (dec : SDec.Idx → EReal) (W1 : SW1.Idx → EReal) (b1 : SB1.Idx → EReal)
    (W2 : SW2.Idx → EReal) (b2 : SB2.Idx → EReal) : SOut.Idx → EReal :=
  fun i => logitsAt (preJoint enc dec W1 b1) W2 b2 (i 0) (i 1) (i 2) (i 3)

/-- Over real entries a product distributes over the sum of the two inputs, term by term. -/
theorem sum_add_mul_of_real {n : Nat} (e c w : Fin n → EReal) (he : ∀ d, ∃ r : ℝ, e d = (r : EReal))
    (hc : ∀ d, ∃ r : ℝ, c d = (r : EReal)) (hw : ∀ d, ∃ r : ℝ, w d = (r : EReal)) :
    ∑ d, (e d + c d) * w d = (∑ d, e d * w d) + ∑ d, c d * w d := by
  rw [← Finset.sum_add_distrib]
  refine Finset.sum_congr rfl fun d _ => ?_
  obtain ⟨a, ha⟩ := he d
  obtain ⟨b, hb⟩ := hc d
  obtain ⟨x, hx⟩ := hw d
  rw [ha, hb, hx, ← EReal.coe_add, ← EReal.coe_mul, ← EReal.coe_mul, ← EReal.coe_mul, ← EReal.coe_add, add_mul]

/-- The two pre-activations agree on real inputs and weights. -/
theorem preSplit_eq_preJoint (enc : SEnc.Idx → EReal) (dec : SDec.Idx → EReal) (W1 : SW1.Idx → EReal) (b1 : SB1.Idx → EReal)
    (hE : AllReal enc) (hD : AllReal dec) (hW : AllReal W1) :
    preSplit enc dec W1 b1 = preJoint enc dec W1 b1 := by
  funext b t u h
  unfold preSplit preJoint
  rw [sum_add_mul_of_real (fun d => enc (ix3 b t d)) (fun d => dec (ix3 b u d)) (fun d => W1 (ix2 d h))
    (fun d => hE _) (fun d => hD _) (fun d => hW _)]

/-- So the two forms of the result array agree on real inputs and weights. -/
theorem outSplit_eq_outJoint (enc : SEnc.Idx → EReal) (dec : SDec.Idx → EReal) (W1 : SW1.Idx → EReal) (b1 : SB1.Idx → EReal)
    (W2 : SW2.Idx → EReal) (b2 : SB2.Idx → EReal) (hE : AllReal enc) (hD : AllReal dec) (hW : AllReal W1) :
    outSplit enc dec W1 b1 W2 b2 = outJoint enc dec W1 b1 W2 b2 := by
  unfold outSplit outJoint
  rw [preSplit_eq_preJoint enc dec W1 b1 hE hD hW]

end Cert.Joint

end
-- ==== Proof.RefIsSpec.lean ====
/-
  The reference program, read one entry at a time, is the joined-first form of the result array.

  The reference adds the encoder and decoder arrays after spreading each over the other's step axis, contracts
  the feature axis against `W1`, adds `b1` along the hidden axis, takes `tanh`, contracts the hidden axis against
  `W2` and adds `b2` along the vocabulary axis. Spreading an array over a new axis reads it at the old
  coordinates, and over the extended reals a contraction is the plain sum over the contracted coordinate. So the
  entry at `(b, t, u, v)` is
    `(∑ h, tanh ((∑ d, (enc[b,t,d] + dec[b,u,d]) · W1[d,h]) + b1[h]) · W2[h,v]) + b2[v]`,
  which is `outJoint` at that entry. The only work is to say that each composed index map of the program sends
  the coordinates where the formula reads them.
-/
import proofs.«123365_j20684562497747_2_alg».proof.Proof.Spec
import proofs.«123365_j20684562497747_2_alg».proof.Proof.Gen.ReferenceIdeal.Read

noncomputable section

namespace Cert.Joint.Ref

open Idealize.ShloMosaic Idealize.ShloMosaic.ValueIdx Cert.ReferenceIdeal Cert.ReferenceIdeal.Read
open scoped BigOperators

/-! ### Where the program's index maps read

  `i` is an entry `(b, t, u, v)` of the result, `h` a hidden coordinate, `d` a feature coordinate. -/

/-- The vocabulary bias is read at `v`. -/
theorem bias2_at (i : SOut.Idx) : idx_main_v11 (idx_main_v12 i) = ix1 (i 3) :=
  funext fun a => by match a with | ⟨0, _⟩ => rfl

/-- The second weight matrix is read at `(h, v)`. -/
theorem weight2_at (i : SOut.Idx) (h : Fin 640) : ridx_main_v10 i h = ix2 h (i 3) :=
  funext fun a => by match a with | ⟨0, _⟩ => rfl | ⟨1, _⟩ => rfl

/-- The hidden bias is read at `h`. -/
theorem bias1_at (i : SOut.Idx) (h : Fin 640) : idx_main_v6 (idx_main_v7 (lidx_main_v10 i h)) = ix1 h :=
  funext fun a => by match a with | ⟨0, _⟩ => rfl

/-- The first weight matrix is read at `(d, h)`. -/
theorem weight1_at (i : SOut.Idx) (h : Fin 640) (d : Fin 512) : ridx_main_v5 (lidx_main_v10 i h) d = ix2 d h :=
  funext fun a => by match a with | ⟨0, _⟩ => rfl | ⟨1, _⟩ => rfl

/-- The encoder array is read at `(b, t, d)`: the decoder step is dropped. -/
theorem enc_at (i : SOut.Idx) (h : Fin 640) (d : Fin 512) :
    idx_main_v0 (idx_main_v2 (lidx_main_v5 (lidx_main_v10 i h) d)) = ix3 (i 0) (i 1) d :=
  funext fun a => by match a with | ⟨0, _⟩ => rfl | ⟨1, _⟩ => rfl | ⟨2, _⟩ => rfl

/-- The decoder array is read at `(b, u, d)`: the encoder step is dropped. -/
theorem dec_at (i : SOut.Idx) (h : Fin 640) (d : Fin 512) :
    idx_main_v1 (idx_main_v3 (lidx_main_v5 (lidx_main_v10 i h) d)) = ix3 (i 0) (i 2) d :=
  funext fun a => by match a with | ⟨0, _⟩ => rfl | ⟨1, _⟩ => rfl | ⟨2, _⟩ => rfl

/-! ### The stages, composed -/

/-- The hidden pre-activation the reference computes at `(b, t, u, h)` is the joined-first one. -/
theorem pre_at (enc : SEnc.Idx → EReal) (dec : SDec.Idx → EReal) (W1 : SW1.Idx → EReal) (b1 : SB1.Idx → EReal)
    (i : SOut.Idx) (h : Fin 640) :
    val_main_v8 (F := Ideal) enc dec W1 b1 (lidx_main_v10 i h) = preJoint enc dec W1 b1 (i 0) (i 1) (i 2) h := by
  rw [val_main_v8_apply, val_main_v5_apply, val_main_v7_apply, val_main_v6_apply, bias1_at, Ideal.addf_def]
  unfold preJoint
  congr 1
  refine Finset.sum_congr rfl fun d _ => ?_
  rw [val_main_v4_apply, val_main_v2_apply, val_main_v0_apply, val_main_v3_apply, val_main_v1_apply,
    enc_at, dec_at, weight1_at, Ideal.addf_def]
  rfl

/-- The reference's result is the joined-first form of the result array. -/
theorem ref_is_outJoint (enc : SEnc.Idx → EReal) (dec : SDec.Idx → EReal) (W1 : SW1.Idx → EReal) (b1 : SB1.Idx → EReal)
    (W2 : SW2.Idx → EReal) (b2 : SB2.Idx → EReal) :
    val_main_v13 (F := Ideal) enc dec W1 b1 W2 b2 = outJoint enc dec W1 b1 W2 b2 := by
  funext i
  rw [val_main_v13_apply, val_main_v10_apply, val_main_v12_apply, val_main_v11_apply, bias2_at, Ideal.addf_def]
  unfold outJoint logitsAt
  congr 1
  refine Finset.sum_congr rfl fun h _ => ?_
  rw [val_main_v9_apply, pre_at, weight2_at, Ideal.hostUnary_tanh_def]
  rfl

end Cert.Joint.Ref

end
-- ==== Proof.Finite.lean ====
/-
  From the precondition to "every entry is a real number".

  The precondition applies `jnp.all(|x| < +∞)` to each of the six float arguments and takes the conjunction. Over the
  extended reals `|x| = max x (-x)`, and `max x (-x) < ⊤` excludes both `⊤` and `⊥`: what is left is the
  image of the real line. The first three arguments (the two activations and the first weight matrix) are the ones
  the distributive law needs.
-/
import proofs.«123365_j20684562497747_2_alg».proof.Proof.Spec
import proofs.«123365_j20684562497747_2_alg».proof.Pre_finite_inputs
import proofs.«123365_j20684562497747_2_alg».proof.Proof.Gen.Pre_finite_inputs
import Idealize.ShloMosaic.Lib.ReduceAll
import Idealize.ShloMosaic.PureOps.Ideal

noncomputable section

namespace Cert.Joint.Finite

open Idealize.ShloMosaic Idealize.ShloMosaic.ValueIdx

/-- The rank-0 shape has exactly one index. -/
instance : Subsingleton Cert.Pre_finite_inputs.S_.Idx := ⟨fun a b => funext fun d => d.elim0⟩

/-- The single-precision pattern `0x7F800000` (exponent all ones, significand zero, sign clear) denotes `+∞`. -/
theorem ofBits_inf : Ideal.ofBits .f32 0x7F800000#32 = (⊤ : EReal) := by
  simp [Ideal.ofBits, Ideal.ieee]

/-- An extended real whose absolute value `max x (-x)` lies below `⊤` is a real number. -/
theorem real_of_abs_lt_top (x : EReal) (h : max x (-x) < ⊤) : ∃ r : ℝ, x = (r : EReal) := by
  induction x using EReal.rec with
  | bot => simp at h
  | coe r => exact ⟨r, rfl⟩
  | top => simp at h

/-- One element of the mask `|x| < +∞` being set says that the element is a real number. -/
theorem real_of_cmp (x : EReal) (h : Ideal.cmp .olt (max x (-x)) (Ideal.ofBits .f32 0x7F800000#32) = 1#1) :
    ∃ r : ℝ, x = (r : EReal) := by
  rw [ofBits_inf] at h
  refine real_of_abs_lt_top x ?_
  by_contra hn
  simp [Ideal.cmp, hn] at h

/-- `jnp.all(|x| < c)` with `c` the constant `+∞` everywhere: every entry of `x` is a real number. -/
theorem allReal_of_all {S T U : Shape} [Subsingleton T.Idx] {axes : List (Fin S.rank)} (x c : FVec Ideal S .f32)
    (hc : ∀ i, c i = Ideal.ofBits .f32 0x7F800000#32) (init : IVec U 1) (hr : S.ReducesTo axes T) (hu : 0 < U.numel) (j : T.Idx)
    (e : Host.reduce IntOp.andi (cmpf .olt (Host.absf x) c) init hr hu j = 1#1) : AllReal x := by
  intro i
  have hi := Host.reduce_andi_all _ init hr hu j e i
  refine real_of_cmp (x i) ?_
  rw [← hc i]
  exact hi

/-- The precondition holds: the two activations and the first weight matrix hold real numbers only. -/
theorem allReal_of_finite_inputs [Cert.Pre_finite_inputs.Facts]
    (a0 : FVec Ideal Cert.Pre_finite_inputs.S8x200x512 .f32) (a1 : FVec Ideal Cert.Pre_finite_inputs.S8x50x512 .f32)
    (a2 : FVec Ideal Cert.Pre_finite_inputs.S512x640 .f32) (a3 : FVec Ideal Cert.Pre_finite_inputs.S640 .f32)
    (a4 : FVec Ideal Cert.Pre_finite_inputs.S640x1024 .f32) (a5 : FVec Ideal Cert.Pre_finite_inputs.S1024 .f32)
    (h : Cert.Pre_finite_inputs.fn (F := Ideal) a0 a1 a2 a3 a4 a5 = fun _ => 1#1) :
    AllReal a0 ∧ AllReal a1 ∧ AllReal a2 := by
  -- the predicate at its one index, its chain of operations in view
  have h0 := congrFun h ValueIdx.ix0
  dsimp only [Cert.Pre_finite_inputs.fn, Cert.Pre_finite_inputs.fn_part1] at h0
  -- the conjunction of the six masks, taken apart from the outside in; the last three conjuncts are not needed
  obtain ⟨h1, -⟩ := IntOp.andi_eq_one.1 h0
  obtain ⟨h2, -⟩ := IntOp.andi_eq_one.1 h1
  obtain ⟨h3, -⟩ := IntOp.andi_eq_one.1 h2
  obtain ⟨h4, e2⟩ := IntOp.andi_eq_one.1 h3
  obtain ⟨e0, e1⟩ := IntOp.andi_eq_one.1 h4
  exact ⟨allReal_of_all a0 _ (fun _ => rfl) _ _ _ _ e0, allReal_of_all a1 _ (fun _ => rfl) _ _ _ _ e1,
    allReal_of_all a2 _ (fun _ => rfl) _ _ _ _ e2⟩

end Cert.Joint.Finite

end
-- ==== Proof.LibPlainMatmul.lean ====
/-
  Two families of small facts about arrays read at coordinates, over literal rank-2 and rank-3 shapes of any sizes.

  * A plain rows-by-columns matrix product — the left operand contracted on its columns, the right on its rows, no
    batch axis — into the zero accumulator, over the extended reals: at `(p, q)` it is the sum over the shared axis
    of the products of row `p` of the left operand and column `q` of the right. A product record of any program
    with these dimension numbers unifies with `plainDims` by unfolding, so the lemma applies to it through
    `refine (matmul_zero_plain _ _ _ p q).trans ?_`.
  * Unit axes added by a shape cast (`[a, c] → [a, 1, c]`, `[c] → [1, 1, c]`) and broadcasts along one or two unit
    axes (`[a, 1, c]`, `[1, b, c]`, `[1, 1, c] → [a, b, c]`), each read at explicit coordinates: a unit axis
    contributes nothing to the row-major position, and a broadcast reads its operand at coordinate zero of the
    axes it spreads.
-/
import Idealize.ShloMosaic.Lib.ValueIdx
import Idealize.ShloMosaic.Lib.Pipeline.Value
import Idealize.ShloMosaic.Lib.ValueLayout
import Idealize.ShloMosaic.PureOps.Ideal.Laws

noncomputable section

namespace Cert.LibPlainMatmul

open Idealize.ShloMosaic Idealize.ShloMosaic.ValueIdx
open scoped BigOperators

/-! ## A rows-by-columns product into the zero accumulator -/

/-- The dimension numbers of a plain m × k by k × n product: the left operand contracted on its columns, the right on
    its rows, no batch axis. -/
abbrev plainDims {m k n : Nat} (wf : DotDims.WF (⟨2, ![m, k]⟩ : Shape) ⟨2, ![k, n]⟩ ⟨2, ![m, n]⟩ [1] [0] [0] [1] [] []) :
    DotDims ⟨2, ![m, k]⟩ ⟨2, ![k, n]⟩ ⟨2, ![m, n]⟩ := ⟨[1], [0], [0], [1], [], [], wf⟩

section PlainDims
variable {m k n : Nat} (wf : DotDims.WF (⟨2, ![m, k]⟩ : Shape) ⟨2, ![k, n]⟩ ⟨2, ![m, n]⟩ [1] [0] [0] [1] [] [])

/-- The left operand is read in the result's row … -/
theorem plain_lhs_row (j : (⟨2, ![m, n]⟩ : Shape).Idx) (c : (plainDims wf).contr.Idx) :
    ((plainDims wf).lhsIdx j c 0).val = (j 0).val := by
  unfold DotDims.lhsIdx
  rw [dif_neg (show ¬(0 : Fin (⟨2, ![m, k]⟩ : Shape).rank) ∈ (plainDims wf).lhsBatch from List.not_mem_nil),
    dif_pos (show (0 : Fin (⟨2, ![m, k]⟩ : Shape).rank) ∈ (plainDims wf).lhsNonContracting from List.mem_singleton.mpr rfl)]
  rfl

/-- … and the right operand in the result's column. -/
theorem plain_rhs_col (j : (⟨2, ![m, n]⟩ : Shape).Idx) (c : (plainDims wf).contr.Idx) :
    ((plainDims wf).rhsIdx j c 1).val = (j 1).val := by
  unfold DotDims.rhsIdx
  rw [dif_neg (show ¬(1 : Fin (⟨2, ![k, n]⟩ : Shape).rank) ∈ (plainDims wf).rhsBatch from List.not_mem_nil),
    dif_pos (show (1 : Fin (⟨2, ![k, n]⟩ : Shape).rank) ∈ (plainDims wf).rhsNonContracting from List.mem_singleton.mpr rfl)]
  rfl

/-- Such a product into the zero accumulator reads, at (p, q), the sum over the shared axis of the products of row p
    of the left operand and column q of the right. -/
theorem matmul_zero_plain {φ₁ φ₂ : FTy} (l : FVec Ideal ⟨2, ![m, k]⟩ φ₁) (r : FVec Ideal ⟨2, ![k, n]⟩ φ₂)
    (p : Fin m) (q : Fin n) :
    FloatOps.matmul (plainDims wf) none l r (constant (F := Ideal) ⟨2, ![m, n]⟩ .f32 0x00000000#32) (ix2 p q)
      = ∑ c : Fin k, l (ix2 p c) * r (ix2 c q) := by
  rw [Ideal.matmul_constant_zero_apply, ← Equiv.sum_comp (contrEquiv1 (plainDims wf) k rfl rfl).symm]
  refine Finset.sum_congr rfl fun c _ => ?_
  have hc := contrEquiv1_symm_val (plainDims wf) k rfl rfl c
  have el : (plainDims wf).lhsIdx (ix2 p q) ((contrEquiv1 (plainDims wf) k rfl rfl).symm c) = ix2 p c :=
    funext fun a => Fin.ext (by
      match a with
      | ⟨0, _⟩ => exact plain_lhs_row wf _ _
      | ⟨1, _⟩ => exact ((plainDims wf).lhsIdx_val_of_single rfl _ _).trans hc)
  have er : (plainDims wf).rhsIdx (ix2 p q) ((contrEquiv1 (plainDims wf) k rfl rfl).symm c) = ix2 c q :=
    funext fun a => Fin.ext (by
      match a with
      | ⟨0, _⟩ => exact ((plainDims wf).rhsIdx_val_of_single rfl _ _).trans hc
      | ⟨1, _⟩ => exact plain_rhs_col wf _ _)
  rw [el, er]

end PlainDims

/-! ## Unit axes added, and broadcasts along an axis, read at coordinates -/

section Layout
variable {α : Type}

/-- An [a, c] array cast to [a, 1, c] reads, at (p, z, s), the operand at (p, s). -/
theorem shapeCast_ac_a1c_apply {a c : ℕ} (x : (⟨2, ![a, c]⟩ : Shape).Idx → α)
    (h : (⟨2, ![a, c]⟩ : Shape).ShapeCasts ⟨3, ![a, 1, c]⟩) (p : Fin a) (z : Fin 1) (s : Fin c) :
    shapeCast ⟨3, ![a, 1, c]⟩ x h (ix3 p z s) = x (ix2 p s) :=
  shapeCast_apply x h _ _ (by
    have hz : z.val = 0 := by omega
    rw [Shape.rowMajor_val_three, Shape.rowMajor_val_two]
    show p.val * c + s.val = (p.val * 1 + z.val) * c + s.val
    rw [hz, Nat.mul_one, Nat.add_zero])

/-- A [c] array cast to [1, 1, c] reads, at (y, z, s), the operand at s. -/
theorem shapeCast_c_11c_apply {c : ℕ} (x : (⟨1, ![c]⟩ : Shape).Idx → α)
    (h : (⟨1, ![c]⟩ : Shape).ShapeCasts ⟨3, ![1, 1, c]⟩) (y z : Fin 1) (s : Fin c) :
    shapeCast ⟨3, ![1, 1, c]⟩ x h (ix3 y z s) = x (ix1 s) :=
  shapeCast_apply x h _ _ (by
    have hy : y.val = 0 := by omega
    have hz : z.val = 0 := by omega
    rw [Shape.rowMajor_val_three, Shape.rowMajor_val_one]
    show s.val = (y.val * 1 + z.val) * c + s.val
    simp only [hy, hz, Nat.zero_mul, Nat.zero_add, Nat.mul_one])

/-- An [a, 1, c] array broadcast to [a, b, c] reads, at (p, q, s), the operand at (p, 0, s). -/
theorem broadcastTo_a1c_abc_apply {a b c : ℕ} (x : (⟨3, ![a, 1, c]⟩ : Shape).Idx → α)
    (h : (⟨3, ![a, 1, c]⟩ : Shape).Broadcasts ⟨3, ![a, b, c]⟩) (p : Fin a) (q : Fin b) (s : Fin c) :
    broadcastTo ⟨3, ![a, b, c]⟩ x h (ix3 p q s) = x (ix3 p (0 : Fin 1) s) := by
  refine broadcastTo_apply x h (ix3 p q s) (ix3 p (0 : Fin 1) s) fun ax => ?_
  match ax with
  | ⟨0, _⟩ =>
    show p.val = if a = 1 then 0 else p.val
    split
    · have := p.isLt; omega
    · rfl
  | ⟨1, _⟩ => rfl
  | ⟨2, _⟩ =>
    show s.val = if c = 1 then 0 else s.val
    split
    · have := s.isLt; omega
    · rfl

/-- A [1, b, c] array broadcast to [a, b, c] reads, at (p, q, s), the operand at (0, q, s). -/
theorem broadcastTo_1bc_abc_apply {a b c : ℕ} (x : (⟨3, ![1, b, c]⟩ : Shape).Idx → α)
    (h : (⟨3, ![1, b, c]⟩ : Shape).Broadcasts ⟨3, ![a, b, c]⟩) (p : Fin a) (q : Fin b) (s : Fin c) :
    broadcastTo ⟨3, ![a, b, c]⟩ x h (ix3 p q s) = x (ix3 (0 : Fin 1) q s) := by
  refine broadcastTo_apply x h (ix3 p q s) (ix3 (0 : Fin 1) q s) fun ax => ?_
  match ax with
  | ⟨0, _⟩ => rfl
  | ⟨1, _⟩ =>
    show q.val = if b = 1 then 0 else q.val
    split
    · have := q.isLt; omega
    · rfl
  | ⟨2, _⟩ =>
    show s.val = if c = 1 then 0 else s.val
    split
    · have := s.isLt; omega
    · rfl

/-- A [1, 1, c] array broadcast to [a, b, c] reads, at (p, q, s), the operand at (0, 0, s). -/
theorem broadcastTo_11c_abc_apply {a b c : ℕ} (x : (⟨3, ![1, 1, c]⟩ : Shape).Idx → α)
    (h : (⟨3, ![1, 1, c]⟩ : Shape).Broadcasts ⟨3, ![a, b, c]⟩) (p : Fin a) (q : Fin b) (s : Fin c) :
    broadcastTo ⟨3, ![a, b, c]⟩ x h (ix3 p q s) = x (ix3 (0 : Fin 1) (0 : Fin 1) s) := by
  refine broadcastTo_apply x h (ix3 p q s) (ix3 (0 : Fin 1) (0 : Fin 1) s) fun ax => ?_
  match ax with
  | ⟨0, _⟩ => rfl
  | ⟨1, _⟩ => rfl
  | ⟨2, _⟩ =>
    show s.val = if c = 1 then 0 else s.val
    split
    · have := s.isLt; omega
    · rfl

end Layout

end Cert.LibPlainMatmul

end
-- ==== Proof.Payloads.lean ====
/-
  The kernel body's two pure payloads, read at an index over the extended reals.

  * The scratch rows: a block of 40 encoder rows times the first weight matrix, one entry per (row, hidden unit):
      scratch[r, h] = ∑ d, x[0, r, d] · W1[d, h].
  * One chunk of 8 rows of the output block: for a scratch row r, a decoder row u (only the 50 unpadded ones are
    kept) and a vocabulary entry v,
      (∑ h, tanh (scratch[r, h] + (∑ d, dec[0, u, d] · W1[d, h]) + b1[h]) · W2[h, v]) + b2[v].
  Over the extended reals a change of float format is the identity and a matrix product into a zero accumulator is
  the plain sum over the shared axis, so what remains is bookkeeping of indices: added or dropped unit axes,
  broadcasts along an axis, the flattening of (row, decoder row) pairs into one axis of 8 · 56 rows before the second
  product and its inverse after it (the pair (r, u) sits at row 56 · r + u both times, so the two cancel), and the
  slice that drops the six padded decoder rows.
-/
import proofs.«123365_j20684562497747_2_alg».proof.Proof.Gen.KernelIdeal.Skeleton
import proofs.«123365_j20684562497747_2_alg».proof.Proof.LibPlainMatmul
import Idealize.ShloMosaic.Lib.ValueIdx
import Idealize.ShloMosaic.Lib.Pipeline.Value
import Idealize.ShloMosaic.Lib.ValueLayout
import Idealize.ShloMosaic.PureOps.Ideal.Laws

noncomputable section

namespace Cert.Joint.Payload

open Cert.KernelIdeal Cert.KernelIdeal.Gen Idealize.ShloMosaic Idealize.ShloMosaic.ValueIdx Cert.LibPlainMatmul
open scoped BigOperators

/-! ## The scratch rows -/

/-- The scratch block at (r, h): row r of the encoder block times column h of the first weight matrix. -/
theorem scratch_apply (w1 : Vec Ideal S512x640 .bf16) (x : Vec Ideal S1x40x512 .f32) (r : Fin 40) (h : Fin 640) :
    k0_pay2 (F := Ideal) w1 x (ix2 r h) = ∑ d : Fin 512, (x (ix3 0 r d) : EReal) * (w1 (ix2 d h) : EReal) := by
  unfold k0_pay2 k0_pay1
  refine (congrFun (shapeCast_self _ shapeCasts_S40x640_S40x640) (ix2 r h)).trans ?_
  refine (matmul_zero_plain _ _ _ r h).trans ?_
  refine Finset.sum_congr rfl fun d _ => ?_
  exact congrArg₂ (· * ·) (shapeCast_1ab_ab_apply x shapeCasts_S1x40x512_S40x512 r d)
    (congrFun (shapeCast_self w1 shapeCasts_S512x640_S512x640) (ix2 d h))

/-! ## The second product, across the flattening of (row, decoder row) pairs -/

/-- The pair (r, u) among the 448 flattened rows: row 56 · r + u. -/
abbrev flatRow (r : Fin 8) (u : Fin 56) : Fin 448 :=
  ⟨r.val * 56 + u.val, by have := r.isLt; have := u.isLt; omega⟩

/-- An [8, 56, 640] array flattened to [448, 640], multiplied by a [640, 1024] matrix into the zero accumulator and
    unflattened to [8, 56, 1024], reads at (r, u, v) the sum over h of the array at (r, u, h) times the matrix at
    (h, v): the pair (r, u) is row 56 · r + u before and after the product, so the two reshapes cancel. -/
theorem flat_matmul_apply (y : FVec Ideal S8x56x640 .bf16) (w : FVec Ideal S640x1024 .bf16)
    (r : Fin 8) (u : Fin 56) (v : Fin 1024) :
    shapeCast S8x56x1024
        (matmul dot_S448x640_S640x1024_S448x1024_1_0_0_1_n_n none (shapeCast S448x640 y shapeCasts_S8x56x640_S448x640) w
          (constant (F := Ideal) S448x1024 .f32 0x00000000#32))
        shapeCasts_S448x1024_S8x56x1024 (ix3 r u v)
      = ∑ h : Fin 640, y (ix3 r u h) * w (ix2 h v) := by
  refine (shapeCast_apply _ shapeCasts_S448x1024_S8x56x1024 (ix3 r u v) (ix2 (flatRow r u) v) ?_).trans ?_
  · rw [Shape.rowMajor_val_two, Shape.rowMajor_val_three]
    rfl
  refine (matmul_zero_plain _ _ _ (flatRow r u) v).trans ?_
  refine Finset.sum_congr rfl fun h _ => ?_
  refine congrArg (· * w (ix2 h v)) ?_
  refine shapeCast_apply y shapeCasts_S8x56x640_S448x640 (ix2 (flatRow r u) h) (ix3 r u h) ?_
  rw [Shape.rowMajor_val_two, Shape.rowMajor_val_three]
  rfl

/-! ## The slice that drops the padded decoder rows -/

/-- The first 50 of the 56 decoder rows, kept in place: the slice at (r, u, v) is the operand at (r, u, v). -/
theorem slice_rows_apply {α : Type} (x : S8x56x1024.Idx → α) (r : Fin 8) (u : Fin 50) (v : Fin 1024) :
    extractStridedSlice S8x50x1024 ![0, 0, 0] x slices_S8x56x1024_o0_0_0_S8x50x1024 (ix3 r u v)
      = x (ix3 r (Fin.castLE (by decide) u) v) := by
  refine extractStridedSlice_apply _ x _ (ix3 r u v) (ix3 r (Fin.castLE (by decide) u) v) fun a => ?_
  match a with
  | ⟨0, _⟩ => exact (Nat.zero_add r.val).symm
  | ⟨1, _⟩ => exact (Nat.zero_add u.val).symm
  | ⟨2, _⟩ => exact (Nat.zero_add v.val).symm

/-! ## One chunk of the output block -/

/-- The chunk at (0, r, u, v): the hidden pre-activation of scratch row r and decoder row u — the scratch entry, plus
    the decoder row's projection by the first weight matrix, plus the first bias — through tanh, times column v of the
    second weight matrix, plus the second bias. -/
theorem chunk_apply (w1 : Vec Ideal S512x640 .bf16) (w2 : Vec Ideal S640x1024 .bf16) (b1 : Vec Ideal S640 .f32)
    (b2 : Vec Ideal S1024 .f32) (dp : Vec Ideal S1x56x512 .f32) (hc : Vec Ideal S8x640 .f32)
    (r : Fin 8) (u : Fin 50) (v : Fin 1024) :
    k0_pay3 (F := Ideal) w1 w2 b1 b2 dp hc (ix4 0 r u v)
      = (∑ h : Fin 640, Ideal.tanh ((hc (ix2 r h) : EReal)
            + (∑ d : Fin 512, (dp (ix3 0 (Fin.castLE (by decide) u) d) : EReal) * (w1 (ix2 d h) : EReal))
            + (b1 (ix1 h) : EReal)) * (w2 (ix2 h v) : EReal)) + (b2 (ix1 v) : EReal) := by
  unfold k0_pay3 k0_pay1
  refine (shapeCast_abc_1abc_apply _ shapeCasts_S8x50x1024_S1x8x50x1024 0 r u v).trans ?_
  refine (slice_rows_apply _ r u v).trans ?_
  refine (addf_apply _ _ _).trans ?_
  refine congrArg₂ (· + ·) ?_ ?_
  · refine (flat_matmul_apply _ _ r (Fin.castLE (by decide) u) v).trans ?_
    refine Finset.sum_congr rfl fun h _ => ?_
    refine congrArg₂ (· * ·) ?_ (congrFun (shapeCast_self w2 shapeCasts_S640x1024_S640x1024) (ix2 h v))
    refine congrArg Ideal.tanh ?_
    refine (addf_apply _ _ _).trans ?_
    refine congrArg₂ (· + ·) ((addf_apply _ _ _).trans (congrArg₂ (· + ·) ?_ ?_)) ?_
    · exact (broadcastTo_a1c_abc_apply _ broadcasts_S8x1x640_S8x56x640 r _ h).trans
        (shapeCast_ac_a1c_apply hc shapeCasts_S8x640_S8x1x640 r 0 h)
    · refine (broadcastTo_1bc_abc_apply _ broadcasts_S1x56x640_S8x56x640 r _ h).trans ?_
      refine (shapeCast_ab_1ab_apply _ shapeCasts_S56x640_S1x56x640 0 _ h).trans ?_
      refine (matmul_zero_plain _ _ _ _ h).trans ?_
      refine Finset.sum_congr rfl fun d _ => ?_
      exact congrArg₂ (· * ·) (shapeCast_1ab_ab_apply dp shapeCasts_S1x56x512_S56x512 _ d)
        (congrFun (shapeCast_self w1 shapeCasts_S512x640_S512x640) (ix2 d h))
    · exact (broadcastTo_11c_abc_apply _ broadcasts_S1x1x640_S8x56x640 r _ h).trans
        (shapeCast_c_11c_apply b1 shapeCasts_S640_S1x1x640 0 0 h)
  · exact (broadcastTo_11c_abc_apply _ broadcasts_S1x1x1024_S8x56x1024 r _ v).trans
      (shapeCast_c_11c_apply b2 shapeCasts_S1024_S1x1x1024 0 0 v)

end Cert.Joint.Payload

end
-- ==== Proof.Pieces.lean ====
/-
  What the kernel body leaves in the output block, piece by piece, at any float instance.

  The body first stores the projected encoder block (40 rows of 640) into its scratch buffer, then runs a counted
  loop of five trips; trip `k` loads scratch rows `8k … 8k+7` and stores, into rows `8k … 8k+7` of the output
  block, the chunk computed from them. The pieces the run finds for the output block are therefore, whatever the
  number of trips, each of the form "rows `8k …` hold the chunk payload of scratch rows `8k …`": proved by
  induction over the recursion that collects the trips' pieces, one trip at a symbolic `k`, never by unrolling.
  The loads of whole input buffers read their contents, and the load of scratch rows after the one whole store
  reads that store's payload at those rows.
-/
import proofs.«123365_j20684562497747_2_alg».proof.Proof.Gen.KernelIdeal.Frame
import Idealize.ShloMosaic.Lib.Pipeline.Value

set_option maxRecDepth 16384

noncomputable section

namespace Cert.Joint.Pieces

open Cert.KernelIdeal Cert.KernelIdeal.Gen
open Idealize.ShloMosaic Idealize.ShloMosaic.TcCoe Idealize.ShloMosaic.Tactic
open Idealize.SL Idealize.SL.Sem

variable {F : FTy → Type} [FloatOps F]

/-- The chunk trip `k` stores: rows `8k … 8k+7` of the output block, computed from rows `8k … 8k+7` of the
    projected encoder block `k0_pay2 x2 x0`. -/
def tripPiece (x0 : Vec F S1x40x512 .f32) (x1 : Vec F S1x56x512 .f32) (x2 : Vec F S512x640 .bf16) (x3 : Vec F S640 .f32) (x4 : Vec F S640x1024 .bf16) (x5 : Vec F S1024 .f32) (k : Fin k0_t1_loop.trips) : View.Piece (Elt F) S1x40x50x1024 .f32 :=
  ⟨Rect.unit (s := S1x40x50x1024) (k0_off2 k) S1x8x50x1024.size (k0_off2_inb k),
    k0_pay3 x2 x4 x3 x5 x1 (View.ld (k0_pay2 x2 x0) (Rect.unit (s := S40x640) (k0_off1 k) S8x640.size (k0_off1_inb k)))⟩

/-- One trip's pieces: a single store. -/
theorem tripL_eq (𝒱 : Variants) (bd : Option 𝒱.V) (c : Dev nD) (i : grid0.Coords) (arg2 : Memref sig .tc .vmem S1x40x512 .f32) (harg2 : arg2.IsWhole) (arg3 : Memref sig .tc .vmem S1x56x512 .f32) (harg3 : arg3.IsWhole) (arg4 : Memref sig .tc .vmem S512x640 .bf16) (harg4 : arg4.IsWhole) (arg5 : Memref sig .tc .vmem S640 .f32) (harg5 : arg5.IsWhole) (arg6 : Memref sig .tc .vmem S640x1024 .bf16) (harg6 : arg6.IsWhole) (arg7 : Memref sig .tc .vmem S1024 .f32) (harg7 : arg7.IsWhole) (arg8 : Memref sig .tc .vmem S1x40x50x1024 .f32) (harg8 : arg8.IsWhole) (arg9 : Memref sig .tc .vmem S40x640 .f32) (harg9 : arg9.IsWhole) (v0 : Vec F S512x640 .bf16) (v2 : Vec F S640x1024 .bf16) (v4 : Vec F S640 .f32) (v5 : Vec F S1024 .f32) (v9 : Vec F S1x56x512 .f32) (X : BufTy.Contents (Elt F) arg9.view.ty) (k : Fin k0_t1_loop.trips) :
    tripL_k0_t1 (F := F) 𝒱 c bd i arg2 harg2 arg3 harg3 arg4 harg4 arg5 harg5 arg6 harg6 arg7 harg7 arg8 harg8 arg9 harg9 v0 v2 v4 v5 v9 X k
      = [⟨Rect.unit (s := S1x40x50x1024) (k0_off2 k) S1x8x50x1024.size (k0_off2_inb k),
          k0_pay3 v0 v2 v4 v5 v9 (View.readAt (Elt F) arg9.view (Rect.unit (s := S40x640) (k0_off1 k) S8x640.size (k0_off1_inb k)).toLoadRect X)⟩] := by
  unfold tripL_k0_t1 trip_k0_t1
  rfl

/-- A piece collected over the trips before `n` is a piece of some trip. -/
theorem mem_pb (𝒱 : Variants) (bd : Option 𝒱.V) (c : Dev nD) (i : grid0.Coords) (arg2 : Memref sig .tc .vmem S1x40x512 .f32) (harg2 : arg2.IsWhole) (arg3 : Memref sig .tc .vmem S1x56x512 .f32) (harg3 : arg3.IsWhole) (arg4 : Memref sig .tc .vmem S512x640 .bf16) (harg4 : arg4.IsWhole) (arg5 : Memref sig .tc .vmem S640 .f32) (harg5 : arg5.IsWhole) (arg6 : Memref sig .tc .vmem S640x1024 .bf16) (harg6 : arg6.IsWhole) (arg7 : Memref sig .tc .vmem S1024 .f32) (harg7 : arg7.IsWhole) (arg8 : Memref sig .tc .vmem S1x40x50x1024 .f32) (harg8 : arg8.IsWhole) (arg9 : Memref sig .tc .vmem S40x640 .f32) (harg9 : arg9.IsWhole) (v0 : Vec F S512x640 .bf16) (v2 : Vec F S640x1024 .bf16) (v4 : Vec F S640 .f32) (v5 : Vec F S1024 .f32) (v9 : Vec F S1x56x512 .f32) (X : BufTy.Contents (Elt F) arg9.view.ty) :
    ∀ (n : ℕ) (p : View.Piece (Elt F) S1x40x50x1024 .f32), p ∈ pb_k0_t1 (F := F) 𝒱 c bd i arg2 harg2 arg3 harg3 arg4 harg4 arg5 harg5 arg6 harg6 arg7 harg7 arg8 harg8 arg9 harg9 v0 v2 v4 v5 v9 X n →
      ∃ k : Fin k0_t1_loop.trips, p ∈ tripL_k0_t1 (F := F) 𝒱 c bd i arg2 harg2 arg3 harg3 arg4 harg4 arg5 harg5 arg6 harg6 arg7 harg7 arg8 harg8 arg9 harg9 v0 v2 v4 v5 v9 X k
  | 0, p, h => by rw [pb_k0_t1.eq_1] at h; exact absurd h List.not_mem_nil
  | n + 1, p, h => by
    rw [pb_k0_t1.eq_2] at h
    unfold pb_k0_t1Step at h
    by_cases hn : n < k0_t1_loop.trips
    · rw [dif_pos hn] at h
      rcases List.mem_append.mp h with h | h
      · exact ⟨⟨n, hn⟩, h⟩
      · exact mem_pb 𝒱 bd c i arg2 harg2 arg3 harg3 arg4 harg4 arg5 harg5 arg6 harg6 arg7 harg7 arg8 harg8 arg9 harg9 v0 v2 v4 v5 v9 X n p h
    · rw [dif_neg hn] at h
      exact mem_pb 𝒱 bd c i arg2 harg2 arg3 harg3 arg4 harg4 arg5 harg5 arg6 harg6 arg7 harg7 arg8 harg8 arg9 harg9 v0 v2 v4 v5 v9 X n p h

/-- The run's pieces for the output block are the trips' pieces, collected over all the trips, the loop entered
    with the scratch holding the one whole store before it. -/
theorem run_pieces (c : Dev nD) (i : grid0.Coords) (arg2 : Memref sig .tc .vmem S1x40x512 .f32) (harg2 : arg2.IsWhole) (arg3 : Memref sig .tc .vmem S1x56x512 .f32) (harg3 : arg3.IsWhole) (arg4 : Memref sig .tc .vmem S512x640 .bf16) (harg4 : arg4.IsWhole) (arg5 : Memref sig .tc .vmem S640 .f32) (harg5 : arg5.IsWhole) (arg6 : Memref sig .tc .vmem S640x1024 .bf16) (harg6 : arg6.IsWhole) (arg7 : Memref sig .tc .vmem S1024 .f32) (harg7 : arg7.IsWhole) (arg8 : Memref sig .tc .vmem S1x40x50x1024 .f32) (harg8 : arg8.IsWhole) (arg9 : Memref sig .tc .vmem S40x640 .f32) (harg9 : arg9.IsWhole) (x0 : Vec F S1x40x512 .f32) (x1 : Vec F S1x56x512 .f32) (x2 : Vec F S512x640 .bf16) (x3 : Vec F S640 .f32) (x4 : Vec F S640x1024 .bf16) (x5 : Vec F S1024 .f32) :
    (kernelRun0_A c i arg2 harg2 arg3 harg3 arg4 harg4 arg5 harg5 arg6 harg6 arg7 harg7 arg8 harg8 arg9 harg9 x0 x1 x2 x3 x4 x5).1
     = pb_k0_t1 Variants.none c none i arg2 harg2 arg3 harg3 arg4 harg4 arg5 harg5 arg6 harg6 arg7 harg7 arg8 harg8 arg9 harg9
      (View.readAt (Elt F) arg4.view (Rect.unit (s := S512x640) ![0, 0] S512x640.size inb_S512x640_S512x640_0_0).toLoadRect (harg4.unread x2))
      (View.readAt (Elt F) arg6.view (Rect.unit (s := S640x1024) ![0, 0] S640x1024.size inb_S640x1024_S640x1024_0_0).toLoadRect (harg6.unread x4))
      (View.readAt (Elt F) arg5.view (Rect.unit (s := S640) ![0] S640.size inb_S640_S640_0).toLoadRect (harg5.unread x3))
      (View.readAt (Elt F) arg7.view (Rect.unit (s := S1024) ![0] S1024.size inb_S1024_S1024_0).toLoadRect (harg7.unread x5))
      (View.readAt (Elt F) arg3.view (Rect.unit (s := S1x56x512) ![0, 0, 0] S1x56x512.size inb_S1x56x512_S1x56x512_0_0_0).toLoadRect (harg3.unread x1))
      (arg9.view.writes (Elt F) arg9.view.junk
        [⟨Rect.unit (s := S40x640) ![0, 0] S40x640.size inb_S40x640_S40x640_0_0,
            k0_pay2
              (View.readAt (Elt F) arg4.view (Rect.unit (s := S512x640) ![0, 0] S512x640.size inb_S512x640_S512x640_0_0).toLoadRect (harg4.unread x2))
              (View.readAt (Elt F) arg2.view (Rect.unit (s := S1x40x512) ![0, 0, 0] S1x40x512.size inb_S1x40x512_S1x40x512_0_0_0).toLoadRect (harg2.unread x0))⟩])
      k0_t1_loop.trips := by
  unfold kernelRun0_A
  dsimp only
  sl_unfold_words
  rfl

/-- A load of a whole buffer at zero offsets reads its contents. -/
theorem read_whole {S : Shape} {e : EltTy} (a : Memref sig .tc .vmem S e) (ha : a.IsWhole) (x : Vec F S e)
    {off : Fin S.rank → Nat} (hz : off = fun _ => 0) (inb : ∀ d, off d + S.size d ≤ S.size d) :
    View.readAt (Elt F) a.view (Rect.unit (s := S) off S.size inb).toLoadRect (ha.unread x) = x := by
  rw [View.readAt_eq_ld, ha.read_unread, View.ld_unit_zero hz]

/-- A load through a rectangle, after ONE store of the whole buffer, reads that store's payload at the rectangle. -/
theorem read_after_whole_store {S : Shape} {e : EltTy} (a : Memref sig .tc .vmem S e)
    {off : Fin S.rank → Nat} (hz : off = fun _ => 0) (inb : ∀ d, off d + S.size d ≤ S.size d) (w : S.Idx → Elt F e) (R : Rect S) :
    View.readAt (Elt F) a.view R.toLoadRect (a.view.writes (Elt F) a.view.junk [⟨Rect.unit (s := S) off S.size inb, w⟩])
      = View.ld w R := by
  rw [View.readAt_writes_junk_eq_canon, View.canon_unit_zero hz]

theorem z1 : (![0] : Fin 1 → Nat) = fun _ => 0 := funext fun a => by match a with | ⟨0, _⟩ => rfl
theorem z2 : (![0, 0] : Fin 2 → Nat) = fun _ => 0 := funext fun a => by match a with | ⟨0, _⟩ => rfl | ⟨1, _⟩ => rfl
theorem z3 : (![0, 0, 0] : Fin 3 → Nat) = fun _ => 0 := funext fun a => by match a with | ⟨0, _⟩ => rfl | ⟨1, _⟩ => rfl | ⟨2, _⟩ => rfl

/-- Every piece the run finds for the output block is some trip's chunk, over the input blocks themselves. -/
theorem piece_form (c : Dev nD) (i : grid0.Coords) (arg2 : Memref sig .tc .vmem S1x40x512 .f32) (harg2 : arg2.IsWhole) (arg3 : Memref sig .tc .vmem S1x56x512 .f32) (harg3 : arg3.IsWhole) (arg4 : Memref sig .tc .vmem S512x640 .bf16) (harg4 : arg4.IsWhole) (arg5 : Memref sig .tc .vmem S640 .f32) (harg5 : arg5.IsWhole) (arg6 : Memref sig .tc .vmem S640x1024 .bf16) (harg6 : arg6.IsWhole) (arg7 : Memref sig .tc .vmem S1024 .f32) (harg7 : arg7.IsWhole) (arg8 : Memref sig .tc .vmem S1x40x50x1024 .f32) (harg8 : arg8.IsWhole) (arg9 : Memref sig .tc .vmem S40x640 .f32) (harg9 : arg9.IsWhole) (x0 : Vec F S1x40x512 .f32) (x1 : Vec F S1x56x512 .f32) (x2 : Vec F S512x640 .bf16) (x3 : Vec F S640 .f32) (x4 : Vec F S640x1024 .bf16) (x5 : Vec F S1024 .f32) (p : View.Piece (Elt F) S1x40x50x1024 .f32)
    (hp : p ∈ (kernelRun0_A c i arg2 harg2 arg3 harg3 arg4 harg4 arg5 harg5 arg6 harg6 arg7 harg7 arg8 harg8 arg9 harg9 x0 x1 x2 x3 x4 x5).1) :
    ∃ k : Fin k0_t1_loop.trips, p = tripPiece x0 x1 x2 x3 x4 x5 k := by
  rw [run_pieces] at hp
  obtain ⟨k, hk⟩ := mem_pb _ _ _ _ _ _ _ _ _ _ _ _ _ _ _ _ _ _ _ _ _ _ _ _ _ _ _ _ hp
  rw [tripL_eq] at hk
  refine ⟨k, (List.mem_singleton.mp hk).trans ?_⟩
  unfold tripPiece
  rw [read_whole arg4 harg4 x2 z2, read_whole arg6 harg6 x4 z2, read_whole arg5 harg5 x3 z1, read_whole arg7 harg7 x5 z1,
    read_whole arg3 harg3 x1 z3, read_whole arg2 harg2 x0 z3, read_after_whole_store arg9 z2]

end Cert.Joint.Pieces

end
-- ==== Proof.BlockValue.lean ====
/-
  The output block the kernel body leaves, over the extended reals, as one function of the six input blocks.

  Every piece the run finds for the output block is one trip's chunk: rows `8k … 8k+7` hold, at local row `r'`,
  decoder step `u` and vocabulary entry `v`, the sum over the hidden axis of `tanh` of (the projected encoder row
  `8k + r'` + the projected decoder row `u` + the first bias), times the second weight, plus the second bias. All
  the chunks are therefore restrictions of ONE function of the block index — the chunking by eight rows has
  disappeared from it — and the canonical contents of pieces that all restrict one function, wherever some piece
  covers, are that function.
-/
import proofs.«123365_j20684562497747_2_alg».proof.Proof.Payloads
import proofs.«123365_j20684562497747_2_alg».proof.Proof.Pieces
import Idealize.ShloMosaic.Lib.ValueIdx
import Idealize.ShloMosaic.PureOps.Ideal.Laws

set_option maxRecDepth 16384

noncomputable section

namespace Cert.Joint.Block

open Cert.KernelIdeal Cert.KernelIdeal.Gen
open Idealize.ShloMosaic Idealize.ShloMosaic.ValueIdx Idealize.ShloMosaic.TcCoe
open scoped BigOperators

/-- The output block at row `r`, decoder step `u` and vocabulary entry `v`, as a function of the six input
    blocks: the encoder row and the decoder row each projected by `W1`, added with `b1`, `tanh`, projected by
    `W2`, plus `b2`. The chunking of the rows by eight has disappeared: row `r` is row `r mod 8` of chunk `r / 8`. -/
def blockAt (x0 : Vec Ideal S1x40x512 .f32) (x1 : Vec Ideal S1x56x512 .f32) (x2 : Vec Ideal S512x640 .bf16) (x3 : Vec Ideal S640 .f32) (x4 : Vec Ideal S640x1024 .bf16) (x5 : Vec Ideal S1024 .f32) (r : Fin 40) (u : Fin 50) (v : Fin 1024) : EReal :=
  (∑ h : Fin 640, Ideal.tanh ((∑ d : Fin 512, (x0 (ix3 0 r d) : EReal) * (x2 (ix2 d h) : EReal))
      + (∑ d : Fin 512, (x1 (ix3 0 (Fin.castLE (by decide) u) d) : EReal) * (x2 (ix2 d h) : EReal)) + (x3 (ix1 h) : EReal)) * (x4 (ix2 h v) : EReal))
    + (x5 (ix1 v) : EReal)

/-- Trip `k`'s load rectangle places local row `r'` at scratch row `8k + r'`. -/
theorem scratch_rows (k : Fin k0_t1_loop.trips) (r' : Fin 8) (h : Fin 640) (hr : 8 * k.val + r'.val < 40) :
    (Rect.unit (s := S40x640) (k0_off1 k) S8x640.size (k0_off1_inb k)).idx (ix2 r' h) = ix2 ⟨8 * k.val + r'.val, hr⟩ h := by
  funext a
  apply Fin.ext
  rw [LoadRect.idx_apply]
  match a with
  | ⟨0, _⟩ => simp [Rect.unit, k0_off1_eq k]
  | ⟨1, _⟩ => simp [Rect.unit, k0_off1_eq k]

theorem trips_le (k : Fin k0_t1_loop.trips) : k.val < 5 := Nat.lt_of_lt_of_le k.isLt k0_t1_abs.2.1

/-- Trip `k`'s chunk at local coordinates is the block function at row `8k + r'`. -/
theorem chunk_piece (x0 : Vec Ideal S1x40x512 .f32) (x1 : Vec Ideal S1x56x512 .f32) (x2 : Vec Ideal S512x640 .bf16) (x3 : Vec Ideal S640 .f32) (x4 : Vec Ideal S640x1024 .bf16) (x5 : Vec Ideal S1024 .f32) (k : Fin k0_t1_loop.trips) (r' : Fin 8) (u : Fin 50) (v : Fin 1024) (hr : 8 * k.val + r'.val < 40) :
    k0_pay3 (F := Ideal) x2 x4 x3 x5 x1 (View.ld (k0_pay2 x2 x0) (Rect.unit (s := S40x640) (k0_off1 k) S8x640.size (k0_off1_inb k))) (ix4 0 r' u v)
      = blockAt x0 x1 x2 x3 x4 x5 ⟨8 * k.val + r'.val, hr⟩ u v := by
  rw [Cert.Joint.Payload.chunk_apply]
  unfold blockAt
  refine congrArg (· + _) (Finset.sum_congr rfl fun h _ => ?_)
  refine congrArg (fun z => Ideal.tanh (z + _ + _) * _) ?_
  show k0_pay2 x2 x0 ((Rect.unit (s := S40x640) (k0_off1 k) S8x640.size (k0_off1_inb k)).idx (ix2 r' h)) = _
  rw [scratch_rows k r' h hr, Cert.Joint.Payload.scratch_apply]

/-- WHAT THE BODY LEAVES IN THE OUTPUT BLOCK, at coordinates: the block function of the input blocks. -/
theorem out_block_apply (c : Dev nD) (i : grid0.Coords) (arg2 : Memref sig .tc .vmem S1x40x512 .f32) (harg2 : arg2.IsWhole) (arg3 : Memref sig .tc .vmem S1x56x512 .f32) (harg3 : arg3.IsWhole) (arg4 : Memref sig .tc .vmem S512x640 .bf16) (harg4 : arg4.IsWhole) (arg5 : Memref sig .tc .vmem S640 .f32) (harg5 : arg5.IsWhole) (arg6 : Memref sig .tc .vmem S640x1024 .bf16) (harg6 : arg6.IsWhole) (arg7 : Memref sig .tc .vmem S1024 .f32) (harg7 : arg7.IsWhole) (arg8 : Memref sig .tc .vmem S1x40x50x1024 .f32) (harg8 : arg8.IsWhole) (arg9 : Memref sig .tc .vmem S40x640 .f32) (harg9 : arg9.IsWhole) (x0 : Vec Ideal S1x40x512 .f32) (x1 : Vec Ideal S1x56x512 .f32) (x2 : Vec Ideal S512x640 .bf16) (x3 : Vec Ideal S640 .f32) (x4 : Vec Ideal S640x1024 .bf16) (x5 : Vec Ideal S1024 .f32) (r : Fin 40) (u : Fin 50) (v : Fin 1024) :
    out0_A_6 (F := Ideal) c i arg2 harg2 arg3 harg3 arg4 harg4 arg5 harg5 arg6 harg6 arg7 harg7 arg8 harg8 arg9 harg9 x0 x1 x2 x3 x4 x5 (ix4 0 r u v) = blockAt x0 x1 x2 x3 x4 x5 r u v := by
  unfold out0_A_6
  rw [View.read_writes_junk_apply_eq_canon]
  refine View.canon_apply_of_pieces (fun y => blockAt x0 x1 x2 x3 x4 x5 (y 1) (y 2) (y 3)) _ (fun p hp x => ?_) (ix4 0 r u v)
    (cover0_A_6 c i arg2 harg2 arg3 harg3 arg4 harg4 arg5 harg5 arg6 harg6 arg7 harg7 arg8 harg8 arg9 harg9 x0 x1 x2 x3 x4 x5 (ix4 0 r u v))
  obtain ⟨k, rfl⟩ := Cert.Joint.Pieces.piece_form c i arg2 harg2 arg3 harg3 arg4 harg4 arg5 harg5 arg6 harg6 arg7 harg7 arg8 harg8 arg9 harg9 x0 x1 x2 x3 x4 x5 p hp
  have hk := trips_le k
  revert x
  unfold Cert.Joint.Pieces.tripPiece
  show ∀ x : S1x8x50x1024.Idx, _
  intro x
  obtain ⟨r', u', v', rfl⟩ : ∃ (r' : Fin 8) (u' : Fin 50) (v' : Fin 1024), x = ix4 0 r' u' v' :=
    ⟨x 1, x 2, x 3, (eq_ix4 x).trans (by rw [show x 0 = (0 : Fin 1) from Fin.ext (Nat.lt_one_iff.mp (x 0).isLt)]; rfl)⟩
  have hr : 8 * k.val + r'.val < 40 := by have := r'.isLt; omega
  refine (chunk_piece x0 x1 x2 x3 x4 x5 k r' u' v' hr).trans ?_
  congr 1
  · apply Fin.ext
    show 8 * k.val + r'.val = (k0_off2 k) 1 + 1 * r'.val
    rw [k0_off2_eq k]; show 8 * k.val + r'.val = 8 * k.val + 1 * r'.val; omega
  · apply Fin.ext
    show u'.val = (k0_off2 k) 2 + 1 * u'.val
    rw [k0_off2_eq k]; show u'.val = 0 + 1 * u'.val; omega
  · apply Fin.ext
    show v'.val = (k0_off2 k) 3 + 1 * v'.val
    rw [k0_off2_eq k]; show v'.val = 0 + 1 * v'.val; omega

end Cert.Joint.Block

end
-- ==== Proof.OutputBlock.lean ====
/-
  Where a block of the result sits in the result array, and that the blocks fill it.

  The result array has entries `(b, T, u, v)` with `b < 8`, `T < 200`, `u < 50`, `v < 1024`. The kernel runs
  over `8 · 5` points `(b, tt)` and at each writes back one block of `1 × 40 × 50 × 1024` entries. The block index at
  the point is `(b, tt, 0, 0)`, so the block's entry `(0, r, u, v)` is the array's entry `(b, 40·tt + r, u, v)`: a block
  holds one batch and forty consecutive encoder steps, whole in the other two axes. Every array entry
  `(b, T, u, v)` lies in the block of the point `(b, T / 40)`, at row `T % 40`, so the forty blocks fill the array.
-/
import proofs.«123365_j20684562497747_2_alg».proof.Proof.Gen.KernelIdeal.Value
import Idealize.ShloMosaic.Lib.ValueIdx
import Idealize.ShloMosaic.Lib.Pipeline.Value

noncomputable section

namespace Cert.Joint.OutBlock

open Cert.KernelIdeal Cert.KernelIdeal.Gen Idealize.ShloMosaic Idealize.ShloMosaic.ValueIdx

/-- The batch a point works on: its first coordinate. -/
abbrev bb (t : Fin cfg0.N) : Fin 8 := grid0.coords t 0

/-- The block of forty encoder steps a point works on: its second coordinate. -/
abbrev tb (t : Fin cfg0.N) : Fin 5 := grid0.coords t 1

/-- The encoder step at row `r` of the `tt`-th block of forty. -/
abbrev stepOf (tt : Fin 5) (r : Fin 40) : Fin 200 := ⟨40 * tt.val + r.val, by omega⟩

/-- The block index of the result's window at a point is the point's two coordinates, then zeros. -/
theorem idx6 : ∀ t : Fin cfg0.N, win0_6.index t (0 : Fin 4) = (grid0.coords t 0).val
    ∧ win0_6.index t (1 : Fin 4) = (grid0.coords t 1).val
    ∧ win0_6.index t (2 : Fin 4) = 0
    ∧ win0_6.index t (3 : Fin 4) = 0 :=
  (by decide +kernel : ∀ t : Fin grid0.N, _)

/-- Every pair (batch, block of steps) is the block index of some point. -/
theorem idx_onto6 : ∀ (b : Fin 8) (tt : Fin 5), ∃ t : Fin cfg0.N, win0_6.index t = ![b.val, tt.val, 0, 0] :=
  (by decide +kernel : ∀ (b : Fin 8) (tt : Fin 5), ∃ t : Fin grid0.N, win0_6.index t = ![b.val, tt.val, 0, 0])

/-- An entry of the block at point `t` is the array's entry of the point's batch, at the block's first step plus
    the entry's row, and at the entry's own last two coordinates. -/
theorem out_emb (t : Fin cfg0.N) (y : S1x40x50x1024.Idx) :
    (((cfg0.win 6).blk t).view.emb y : S8x200x50x1024.Idx) = ix4 (bb t) (stepOf (tb t) (y 1)) (y 2) (y 3) := by
  obtain ⟨e0, e1, e2, e3⟩ := idx6 t
  funext a; apply Fin.ext
  match a with
  | ⟨0, _⟩ =>
    show win0_6.index t (0 : Fin 4) * 1 + 1 * (y 0).val = (grid0.coords t 0).val
    have hy : (y 0).val < 1 := (y 0).isLt
    omega
  | ⟨1, _⟩ =>
    show win0_6.index t (1 : Fin 4) * 40 + 1 * (y 1).val = 40 * (grid0.coords t 1).val + (y 1).val
    omega
  | ⟨2, _⟩ =>
    show win0_6.index t (2 : Fin 4) * 50 + 1 * (y 2).val = (y 2).val
    omega
  | ⟨3, _⟩ =>
    show win0_6.index t (3 : Fin 4) * 1024 + 1 * (y 3).val = (y 3).val
    omega

/-- The same at coordinates: row `r`, decoder step `u`, vocabulary entry `v` of the block. -/
theorem out_emb_ix (t : Fin cfg0.N) (r : Fin 40) (u : Fin 50) (v : Fin 1024) :
    (((cfg0.win 6).blk t).view.emb (ix4 (0 : Fin 1) r u v) : S8x200x50x1024.Idx) = ix4 (bb t) (stepOf (tb t) r) u v :=
  out_emb t (ix4 (0 : Fin 1) r u v)

/-- An entry of the array is in the block at point `t` iff each coordinate is in the block's range on its axis. -/
theorem mem_blk6 (t : Fin cfg0.N) (i : S8x200x50x1024.Idx) :
    i ∈ ((cfg0.win 6).blk t).view.set ↔ ∀ a : Fin 4, win0_6.index t a * S1x40x50x1024.size a ≤ (i a).val
      ∧ (i a).val < win0_6.index t a * S1x40x50x1024.size a + S1x40x50x1024.size a := by
  show i ∈ ((View.whole main_v3).slice (win0_6.rect t)).set ↔ _
  rw [View.set_slice_whole, Rect.mem_set_unit]
  exact Iff.rfl

/-- The blocks fill the array: the entry `(b, T, u, v)` is in the block of the point `(b, T / 40)`, and every point
    writes its block back. -/
theorem cover6 (i : S8x200x50x1024.Idx) :
    ∃ t : Fin cfg0.N, (cfg0.win 6).flush t = true ∧ i ∈ ((cfg0.win 6).blk t).view.set := by
  have hi0 : (i 0).val < 8 := (i 0).isLt
  have hi1 : (i 1).val < 200 := (i 1).isLt
  have hi2 : (i 2).val < 50 := (i 2).isLt
  have hi3 : (i 3).val < 1024 := (i 3).isLt
  obtain ⟨t, ht⟩ := idx_onto6 ⟨(i 0).val, hi0⟩ ⟨(i 1).val / 40, by omega⟩
  have q0 : win0_6.index t (0 : Fin 4) = (i 0).val := congrFun ht 0
  have q1 : win0_6.index t (1 : Fin 4) = (i 1).val / 40 := congrFun ht 1
  have q2 : win0_6.index t (2 : Fin 4) = 0 := congrFun ht 2
  have q3 : win0_6.index t (3 : Fin 4) = 0 := congrFun ht 3
  refine ⟨t, flush0_6 t, ?_⟩
  rw [mem_blk6]
  intro a
  match a with
  | ⟨0, _⟩ =>
    show win0_6.index t (0 : Fin 4) * 1 ≤ (i 0).val ∧ (i 0).val < win0_6.index t (0 : Fin 4) * 1 + 1
    omega
  | ⟨1, _⟩ =>
    show win0_6.index t (1 : Fin 4) * 40 ≤ (i 1).val ∧ (i 1).val < win0_6.index t (1 : Fin 4) * 40 + 40
    omega
  | ⟨2, _⟩ =>
    show win0_6.index t (2 : Fin 4) * 50 ≤ (i 2).val ∧ (i 2).val < win0_6.index t (2 : Fin 4) * 50 + 50
    omega
  | ⟨3, _⟩ =>
    show win0_6.index t (3 : Fin 4) * 1024 ≤ (i 3).val ∧ (i 3).val < win0_6.index t (3 : Fin 4) * 1024 + 1024
    omega

end Cert.Joint.OutBlock

end
-- ==== Proof.InputBlocks.lean ====
/-
  What each input window's block at a grid point reads of the arrays the pipelined region starts from.

  The region runs over a grid of 8 × 5 points. Point `t` works on batch entry `bb t` and on the block `tb t` of
  forty consecutive encoder steps:
    * the encoder window's block [1, 40, 512] is steps `40 · tb t … 40 · tb t + 39` of batch `bb t` of the encoder
      argument;
    * the decoder window's block [1, 56, 512] is all 56 rows of batch `bb t` of the padded decoder array;
    * the four parameter windows (the two projection matrices in their narrower format, the two biases) take their
      whole array at every point: the block is the array.
  An element of a block sits in its array, on every axis, at block index × block size + its own coordinate, and the
  block indices are the printed index maps', decided once over the forty points.
-/
import proofs.«123365_j20684562497747_2_alg».proof.Proof.Gen.KernelIdeal.Value
import Idealize.ShloMosaic.Lib.ValueIdx
import Idealize.ShloMosaic.Lib.Pipeline.Value
import proofs.«123365_j20684562497747_2_alg».proof.Proof.OutputBlock

noncomputable section

namespace Cert.Joint.Blocks

open Cert.KernelIdeal Cert.KernelIdeal.Gen Idealize.ShloMosaic Idealize.ShloMosaic.ValueIdx Idealize.ShloMosaic.TcCoe
open Cert.Joint.OutBlock

variable (m : (ℓ : Loc nD τ sig) → Buf (Elt Ideal) ℓ)

/-! ## The block indices

`bb t` is the batch entry grid point `t` works on, `tb t` its block of forty encoder steps, and `stepOf (tb t) r` step
`r` of that block as a step of the whole encoder sequence. -/

/-- The input windows' block indices at every grid point: the encoder's follows both coordinates, the decoder's
    the batch only, the parameters' are zero. -/
theorem idx_in : ∀ t : Fin cfg0.N,
    win0_0.index t (0 : Fin 3) = (bb t).val ∧ win0_0.index t (1 : Fin 3) = (tb t).val ∧ win0_0.index t (2 : Fin 3) = 0
    ∧ win0_1.index t (0 : Fin 3) = (bb t).val ∧ win0_1.index t (1 : Fin 3) = 0 ∧ win0_1.index t (2 : Fin 3) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0 :=
  (by decide +kernel : ∀ t : Fin grid0.N, _)

/-! ## The encoder window -/

/-- An element of the encoder block at point `t` is the encoder argument's at the same batch, the block's first
    step plus the element's own, and the same feature. -/
theorem iblk0_at (c : Dev nD) (t : Fin cfg0.N) (y : S1x40x512.Idx) (k : S8x200x512.Idx)
    (h0 : (k 0).val = (bb t).val) (h1 : (k 1).val = 40 * (tb t).val + (y 1).val) (h2 : (k 2).val = (y 2).val) :
    (iblk m c 0 t : S1x40x512.Idx → EReal) y = (m ((c : Thread nD τ).loc main_arg0) : S8x200x512.Idx → EReal) k := by
  obtain ⟨e0, e1, e2, -⟩ := idx_in t
  have hy0 : (y 0).val < 1 := (y 0).isLt
  unfold iblk
  rw [View.read_apply]
  show V m c main_arg0 (((cfg0.win 0).blk t).view.emb y) = _
  rw [V_main_arg0]
  refine congrArg (m ((c : Thread nD τ).loc main_arg0) : S8x200x512.Idx → EReal) (funext fun a => Fin.ext ?_)
  match a with
  | ⟨0, _⟩ => show win0_0.index t (0 : Fin 3) * 1 + 1 * (y 0).val = (k 0).val; omega
  | ⟨1, _⟩ => show win0_0.index t (1 : Fin 3) * 40 + 1 * (y 1).val = (k 1).val; omega
  | ⟨2, _⟩ => show win0_0.index t (2 : Fin 3) * 512 + 1 * (y 2).val = (k 2).val; omega

/-- The encoder block at explicit coordinates. -/
theorem iblk0_apply (c : Dev nD) (t : Fin cfg0.N) (r : Fin 40) (d : Fin 512) :
    (iblk m c 0 t : S1x40x512.Idx → EReal) (ix3 0 r d)
      = (m ((c : Thread nD τ).loc main_arg0) : S8x200x512.Idx → EReal) (ix3 (bb t) (stepOf (tb t) r) d) :=
  iblk0_at m c t (ix3 0 r d) (ix3 (bb t) (stepOf (tb t) r) d) rfl rfl rfl

/-! ## The decoder window -/

/-- An element of the decoder block at point `t` is the padded decoder array's at the same batch, row and feature. -/
theorem iblk1_at (c : Dev nD) (t : Fin cfg0.N) (y : S1x56x512.Idx) (k : S8x56x512.Idx)
    (h0 : (k 0).val = (bb t).val) (h1 : (k 1).val = (y 1).val) (h2 : (k 2).val = (y 2).val) :
    (iblk m c 1 t : S1x56x512.Idx → EReal) y = (V m c main_v0 : S8x56x512.Idx → EReal) k := by
  obtain ⟨-, -, -, e0, e1, e2, -⟩ := idx_in t
  have hy0 : (y 0).val < 1 := (y 0).isLt
  unfold iblk
  rw [View.read_apply]
  show V m c main_v0 (((cfg0.win 1).blk t).view.emb y) = _
  refine congrArg (V m c main_v0 : S8x56x512.Idx → EReal) (funext fun a => Fin.ext ?_)
  match a with
  | ⟨0, _⟩ => show win0_1.index t (0 : Fin 3) * 1 + 1 * (y 0).val = (k 0).val; omega
  | ⟨1, _⟩ => show win0_1.index t (1 : Fin 3) * 56 + 1 * (y 1).val = (k 1).val; omega
  | ⟨2, _⟩ => show win0_1.index t (2 : Fin 3) * 512 + 1 * (y 2).val = (k 2).val; omega

/-- The decoder block at explicit coordinates: row `u` of the 56 padded rows. -/
theorem iblk1_apply (c : Dev nD) (t : Fin cfg0.N) (u : Fin 56) (d : Fin 512) :
    (iblk m c 1 t : S1x56x512.Idx → EReal) (ix3 0 u d) = (V m c main_v0 : S8x56x512.Idx → EReal) (ix3 (bb t) u d) :=
  iblk1_at m c t (ix3 0 u d) (ix3 (bb t) u d) rfl rfl rfl

/-! ## The parameter windows: the whole array at every point -/

/-- The first projection matrix's block is the whole matrix, in the narrower format, as the region finds it. -/
theorem iblk2_eq (c : Dev nD) (t : Fin cfg0.N) : @Eq (S512x640.Idx → EReal) (iblk m c 2 t) (V m c main_v1) := by
  obtain ⟨-, -, -, -, -, -, e0, e1, -⟩ := idx_in t
  funext j
  unfold iblk
  rw [View.read_apply]
  show V m c main_v1 (((cfg0.win 2).blk t).view.emb j) = V m c main_v1 j
  refine congrArg (V m c main_v1 : S512x640.Idx → EReal) (funext fun a => Fin.ext ?_)
  match a with
  | ⟨0, _⟩ => show win0_2.index t (0 : Fin 2) * 512 + 1 * (j 0).val = (j 0).val; omega
  | ⟨1, _⟩ => show win0_2.index t (1 : Fin 2) * 640 + 1 * (j 1).val = (j 1).val; omega

/-- At an index. -/
theorem iblk2_apply (c : Dev nD) (t : Fin cfg0.N) (j : S512x640.Idx) :
    (iblk m c 2 t : S512x640.Idx → EReal) j = (V m c main_v1 : S512x640.Idx → EReal) j :=
  congrFun (iblk2_eq m c t) j

/-- The first bias's block is the whole bias argument. -/
theorem iblk3_eq (c : Dev nD) (t : Fin cfg0.N) :
    @Eq (S640.Idx → EReal) (iblk m c 3 t) (m ((c : Thread nD τ).loc main_arg3)) := by
  obtain ⟨-, -, -, -, -, -, -, -, e0, -⟩ := idx_in t
  funext j
  unfold iblk
  rw [View.read_apply]
  show V m c main_arg3 (((cfg0.win 3).blk t).view.emb j) = _
  rw [V_main_arg3]
  refine congrArg (m ((c : Thread nD τ).loc main_arg3) : S640.Idx → EReal) (funext fun a => Fin.ext ?_)
  match a with
  | ⟨0, _⟩ => show win0_3.index t (0 : Fin 1) * 640 + 1 * (j 0).val = (j 0).val; omega

/-- At an index. -/
theorem iblk3_apply (c : Dev nD) (t : Fin cfg0.N) (j : S640.Idx) :
    (iblk m c 3 t : S640.Idx → EReal) j = (m ((c : Thread nD τ).loc main_arg3) : S640.Idx → EReal) j :=
  congrFun (iblk3_eq m c t) j

/-- The second projection matrix's block is the whole matrix, in the narrower format, as the region finds it. -/
theorem iblk4_eq (c : Dev nD) (t : Fin cfg0.N) : @Eq (S640x1024.Idx → EReal) (iblk m c 4 t) (V m c main_v2) := by
  obtain ⟨-, -, -, -, -, -, -, -, -, e0, e1, -⟩ := idx_in t
  funext j
  unfold iblk
  rw [View.read_apply]
  show V m c main_v2 (((cfg0.win 4).blk t).view.emb j) = V m c main_v2 j
  refine congrArg (V m c main_v2 : S640x1024.Idx → EReal) (funext fun a => Fin.ext ?_)
  match a with
  | ⟨0, _⟩ => show win0_4.index t (0 : Fin 2) * 640 + 1 * (j 0).val = (j 0).val; omega
  | ⟨1, _⟩ => show win0_4.index t (1 : Fin 2) * 1024 + 1 * (j 1).val = (j 1).val; omega

/-- At an index. -/
theorem iblk4_apply (c : Dev nD) (t : Fin cfg0.N) (j : S640x1024.Idx) :
    (iblk m c 4 t : S640x1024.Idx → EReal) j = (V m c main_v2 : S640x1024.Idx → EReal) j :=
  congrFun (iblk4_eq m c t) j

/-- The second bias's block is the whole bias argument. -/
theorem iblk5_eq (c : Dev nD) (t : Fin cfg0.N) :
    @Eq (S1024.Idx → EReal) (iblk m c 5 t) (m ((c : Thread nD τ).loc main_arg5)) := by
  obtain ⟨-, -, -, -, -, -, -, -, -, -, -, e0⟩ := idx_in t
  funext j
  unfold iblk
  rw [View.read_apply]
  show V m c main_arg5 (((cfg0.win 5).blk t).view.emb j) = _
  rw [V_main_arg5]
  refine congrArg (m ((c : Thread nD τ).loc main_arg5) : S1024.Idx → EReal) (funext fun a => Fin.ext ?_)
  match a with
  | ⟨0, _⟩ => show win0_5.index t (0 : Fin 1) * 1024 + 1 * (j 0).val = (j 0).val; omega

/-- At an index. -/
theorem iblk5_apply (c : Dev nD) (t : Fin cfg0.N) (j : S1024.Idx) :
    (iblk m c 5 t : S1024.Idx → EReal) j = (m ((c : Thread nD τ).loc main_arg5) : S1024.Idx → EReal) j :=
  congrFun (iblk5_eq m c t) j

end Cert.Joint.Blocks

end
-- ==== Proof.HostPrefix.lean ====
/-
  The arrays the kernel region finds, read at an index.

  Before the region the host does three things to the arguments: it pads the decoder activations `[8, 50, 512]` with
  six rows of zeros on the middle axis, to `[8, 56, 512]`, and it narrows the two weight matrices to the 16-bit format.
  Over the extended reals a format change is the identity, so the region finds the two weight matrices as they were
  passed; and a padded array read at a row below 50 is the array it was made from (the six added rows are never read
  by the result).
-/
import proofs.«123365_j20684562497747_2_alg».proof.Proof.Gen.KernelIdeal.Frame
import Idealize.ShloMosaic.Lib.ValueIdx
import Idealize.ShloMosaic.Lib.Pipeline.Value
import Idealize.ShloMosaic.Lib.StableHlo.Run
import Idealize.ShloMosaic.Lib.KernelVsHost

noncomputable section

namespace Cert.Joint.Host

open Cert.KernelIdeal Cert.KernelIdeal.Gen Idealize.ShloMosaic Idealize.ShloMosaic.ValueIdx Idealize.ShloMosaic.TcCoe

variable (m : (ℓ : Loc nD τ sig) → Buf (Elt Ideal) ℓ) (c : Dev nD)

/-- The first weight matrix as the region finds it: the argument, narrowed. -/
theorem V_W1_eq : @Eq (S512x640.Idx → EReal) (V m c main_v1)
    (truncf (F := Ideal) (s := S512x640) (φ := .f32) .bf16 (m ((c : Thread nD τ).loc main_arg2)) Facts₀.bitsLt_bf16_f32) := by
  dsimp only [Gen.V]
  simp only [Gen.hostOps0, Gen.hostOps0_1, Gen.hostOps0_2, List.flatten_cons, List.flatten_nil, List.append_nil, List.cons_append,
    List.nil_append]
  after_results

/-- Narrowing is the identity over the extended reals: entry for entry the region finds the first weight matrix as passed. -/
theorem V_W1 (j : S512x640.Idx) : (V m c main_v1 : S512x640.Idx → EReal) j = m ((c : Thread nD τ).loc main_arg2) j :=
  congrFun (V_W1_eq m c) j

/-- The second weight matrix as the region finds it: the argument, narrowed. -/
theorem V_W2_eq : @Eq (S640x1024.Idx → EReal) (V m c main_v2)
    (truncf (F := Ideal) (s := S640x1024) (φ := .f32) .bf16 (m ((c : Thread nD τ).loc main_arg4)) Facts₀.bitsLt_bf16_f32) := by
  dsimp only [Gen.V]
  simp only [Gen.hostOps0, Gen.hostOps0_1, Gen.hostOps0_2, List.flatten_cons, List.flatten_nil, List.append_nil, List.cons_append,
    List.nil_append]
  after_results

/-- Entry for entry the region finds the second weight matrix as passed. -/
theorem V_W2 (j : S640x1024.Idx) : (V m c main_v2 : S640x1024.Idx → EReal) j = m ((c : Thread nD τ).loc main_arg4) j :=
  congrFun (V_W2_eq m c) j

/-- The decoder activations as the region finds them: the argument padded on the middle axis, nothing before, six rows
    after, nothing between, with the integer `0` converted to a float. -/
theorem V_dec_eq : @Eq (S8x56x512.Idx → EReal) (V m c main_v0)
    (pad (s := S8x50x512) S8x56x512 ![0, 0, 0] ![0, 6, 0] ![0, 0, 0] (m ((c : Thread nD τ).loc main_arg1))
      (sitofp (F := Ideal) (s := S_) .f32 (constantI S_ 32 0#32)) Facts₀.pads_S8x50x512_S8x56x512_000_060_000 Facts₀.h_S_) := by
  dsimp only [Gen.V]
  simp only [Gen.hostOps0, Gen.hostOps0_1, Gen.hostOps0_2, List.flatten_cons, List.flatten_nil, List.append_nil, List.cons_append,
    List.nil_append]
  after_results
  rfl

/-- At a row `u < 50` the padded array is the argument: with no low padding and no interior padding, index
    `(b, u, d)` of the result is index `(b, u, d)` of the operand. -/
theorem V_dec (b : Fin 8) (u : Fin 50) (d : Fin 512) :
    (V m c main_v0 : S8x56x512.Idx → EReal) (ix3 b (Fin.castLE (by decide) u) d) = m ((c : Thread nD τ).loc main_arg1) (ix3 b u d) := by
  rw [V_dec_eq m c]
  refine pad_apply_of_inside _ _ _ _ _ _ _ _ (ix3 b u d) ?_
  intro a
  fin_cases a <;> simp

end Cert.Joint.Host

end
-- ==== Proof.KernelValue.lean ====
/-
  From blocks to the array: the result array the kernel leaves, over the extended reals.

  Grid point `(b, tb)` of the 8 × 5 grid stages rows `40·tb … 40·tb + 39` of batch `b` of the encoder array, batch
  `b` of the decoder array padded with six zero rows, and the whole weight and bias arrays (the weights through
  a change of float format, the identity here); the body leaves in its output block the block function of those,
  and the point writes that block back at rows `40·tb …` of batch `b` of the result. Read at the array's index
  this is the logits in their projected-first form, the padded decoder rows never read. The forty blocks tile
  the result array, so after the run the array is that function everywhere.
-/
import proofs.«123365_j20684562497747_2_alg».proof.Proof.BlockValue
import proofs.«123365_j20684562497747_2_alg».proof.Proof.Spec
import proofs.«123365_j20684562497747_2_alg».proof.Proof.Gen.KernelIdeal.Value
import proofs.«123365_j20684562497747_2_alg».proof.Proof.InputBlocks
import proofs.«123365_j20684562497747_2_alg».proof.Proof.HostPrefix
import proofs.«123365_j20684562497747_2_alg».proof.Proof.OutputBlock

set_option maxRecDepth 16384

noncomputable section

namespace Cert.Joint.KernelValue

open Cert.KernelIdeal Cert.KernelIdeal.Gen
open Idealize.ShloMosaic Idealize.ShloMosaic.ValueIdx Idealize.ShloMosaic.TcCoe Idealize.SL.Sem
open Idealize.ShloMosaic.Pipeline (Dat)
open scoped BigOperators

variable (m : (ℓ : Loc nD τ sig) → Buf (Elt Ideal) ℓ) (ρ : Dev nD → PrngReg)

/-- What a grid point writes back, at coordinates: the block function of the point's six input blocks. -/
theorem flushed_apply (c : Dev nD) (t : Fin cfg0.N) (r : Fin 40) (u : Fin 50) (v : Fin 1024) :
    (dats m 0 c).flushed 6 t (ix4 0 r u v)
      = Cert.Joint.Block.blockAt (iblk m c 0 t) (iblk m c 1 t) (iblk m c 2 t) (iblk m c 3 t) (iblk m c 4 t) (iblk m c 5 t) r u v := by
  rw [Cert.KernelIdeal.Value.flushed6_A]
  exact Cert.Joint.Block.out_block_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t) (iblk m c 2 t) (iblk m c 3 t) (iblk m c 4 t) (iblk m c 5 t) r u v

/-- The result array the kernel computes, as a function of the six argument arrays. -/
abbrev result (c : Dev nD) : S8x200x50x1024.Idx → EReal :=
  Cert.Joint.outSplit (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- WHAT POINT `t` WRITES BACK is block `t` of the result array: point `(b, tb)` reads rows `40·tb …` of batch `b` of
    the encoder array, batch `b` of the (padded) decoder array and the whole weight and bias arrays. -/
theorem flushed_eq (c : Dev nD) (t : Fin cfg0.N) :
    (dats m 0 c).flushed 6 t = ((cfg0.win 6).blk t).view.read (Elt Ideal) (result m c) := by
  funext y
  obtain ⟨r, u, v, rfl⟩ : ∃ (r : Fin 40) (u : Fin 50) (v : Fin 1024), y = ix4 0 r u v :=
    ⟨y 1, y 2, y 3, (eq_ix4 y).trans (by rw [show y 0 = (0 : Fin 1) from Fin.ext (Nat.lt_one_iff.mp (y 0).isLt)]; rfl)⟩
  rw [flushed_apply]
  show _ = result m c (((cfg0.win 6).blk t).view.emb (ix4 0 r u v))
  rw [Cert.Joint.OutBlock.out_emb_ix t r u v]
  show _ = Cert.Joint.logitsAt (Cert.Joint.preSplit (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5))
    (Cert.Joint.OutBlock.bb t) (Cert.Joint.OutBlock.stepOf (Cert.Joint.OutBlock.tb t) r) u v
  unfold Cert.Joint.Block.blockAt Cert.Joint.logitsAt Cert.Joint.preSplit
  simp only [Cert.Joint.Blocks.iblk0_apply m c t, Cert.Joint.Blocks.iblk1_apply m c t, Cert.Joint.Blocks.iblk2_apply m c t,
    Cert.Joint.Blocks.iblk3_apply m c t, Cert.Joint.Blocks.iblk4_apply m c t, Cert.Joint.Blocks.iblk5_apply m c t,
    Cert.Joint.Host.V_W1 m c, Cert.Joint.Host.V_W2 m c, Cert.Joint.Host.V_dec m c]

/-- THE RESULT ARRAY after the run: the output's blocks tile it, so it is the result function everywhere. -/
theorem final (c : Dev nD) : (dats m 0 c).arrAt 6 cfg0.N = result m c :=
  (dats m 0 c).arrAt_eq_of_cover 6 (result m c) (fun t _ => flushed_eq m c t) Cert.Joint.OutBlock.cover6

/-- The kernel's run over the extended reals: the result array ends at the logits, projected-first form, of the
    arguments, and the arguments end as they were. -/
theorem run : θ_run defs (onTc (τ := τ) (main (F := Ideal))) ⟨m, fun _ => 0, ρ⟩ fun r => ∀ c : Dev nD,
      r.2.mem ((c : Thread nD τ).loc main_v3) = Cert.Joint.outSplit (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Cert.KernelIdeal.Value.run_blocks m ρ)

end Cert.Joint.KernelValue

end
-- ==== Proof.lean ====
/-
  The joint network of a transducer: a Pallas TPU kernel against its jnp reference, over the extended reals.

  Both programs compute, for a batch `b`, an encoder step `t`, a decoder step `u` and a vocabulary entry `v`,
    `(∑ h, tanh (pre b t u h) · W2[h, v]) + b2[v]`.
  The reference forms the pre-activation from the joined inputs, `(∑ d, (enc[b,t,d] + dec[b,u,d]) · W1[d,h]) + b1[h]`;
  the kernel projects each input first, `(∑ d, enc[b,t,d] · W1[d,h]) + (∑ d, dec[b,u,d] · W1[d,h]) + b1[h]`, per grid
  point `(b, tb)` over blocks of forty encoder steps, the decoder padded from fifty to fifty-six steps with zeros
  whose rows are sliced off before the store, the weights passed through a narrower float format (the identity on
  the extended reals), and the forty rows of a block produced eight at a time by a counted loop reading the projected
  encoder rows back from a scratch buffer. The two pre-activations agree because the precondition makes `enc`,
  `dec` and `W1` real: on real numbers a product distributes over the sum, term by term (it does not at the
  infinities, which is where the precondition is used).

  The modules: `Spec` (the two forms and the law between them), `RefIsSpec` (the reference's operations, read at an
  index, are the joined-first form), `Finite` (the precondition makes every entry real), `Payloads` (the body's two
  pure payloads at an index), `Pieces` (what the body's loop leaves in the output block, piece by piece), `BlockValue`
  (the output block as one function of the input blocks), `InputBlocks` / `HostPrefix` / `OutputBlock` (where each
  block sits in its array, what the host operations before the kernel leave, and that the output's blocks tile the
  result), `KernelValue` (the result array after the kernel's run is the projected-first form).
-/
import proofs.«123365_j20684562497747_2_alg».proof.Defs
import proofs.«123365_j20684562497747_2_alg».proof.Proof.Gen.Kernel
import proofs.«123365_j20684562497747_2_alg».proof.Proof.Gen.Kernel.Skeleton
import proofs.«123365_j20684562497747_2_alg».proof.Proof.Gen.Kernel.Loops
import proofs.«123365_j20684562497747_2_alg».proof.Proof.Gen.Kernel.Launch
import proofs.«123365_j20684562497747_2_alg».proof.Proof.Gen.Kernel.Points
import proofs.«123365_j20684562497747_2_alg».proof.Proof.Gen.Kernel.Frame
import proofs.«123365_j20684562497747_2_alg».proof.Proof.Gen.KernelIdeal
import proofs.«123365_j20684562497747_2_alg».proof.Proof.Gen.KernelIdeal.Skeleton
import proofs.«123365_j20684562497747_2_alg».proof.Proof.Gen.KernelIdeal.Loops
import proofs.«123365_j20684562497747_2_alg».proof.Proof.Gen.KernelIdeal.Launch
import proofs.«123365_j20684562497747_2_alg».proof.Proof.Gen.KernelIdeal.Points
import proofs.«123365_j20684562497747_2_alg».proof.Proof.Gen.KernelIdeal.Frame
import proofs.«123365_j20684562497747_2_alg».proof.Proof.Gen.ReferenceIdeal
import proofs.«123365_j20684562497747_2_alg».proof.Proof.Gen.KernelIdeal.Value
import proofs.«123365_j20684562497747_2_alg».proof.Proof.Gen.ReferenceIdeal.Run
import proofs.«123365_j20684562497747_2_alg».proof.Proof.Gen.ReferenceIdeal.Read
import proofs.«123365_j20684562497747_2_alg».proof.Proof.Gen.Pre_finite_inputs
import proofs.«123365_j20684562497747_2_alg».proof.Proof.Spec
import proofs.«123365_j20684562497747_2_alg».proof.Proof.RefIsSpec
import proofs.«123365_j20684562497747_2_alg».proof.Proof.Finite
import proofs.«123365_j20684562497747_2_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel terminates, faults nowhere and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Over the extended reals the kernel ends with the logits in their projected-first form and the reference with
    them in their joined-first form, of arguments that agree; the precondition makes the encoder, decoder and first
    weight arrays real, and on real arrays the two forms are one function. -/
theorem algebraic : Cert.algebraic_KernelIdeal_ReferenceIdeal := by
  intro m ρ m' ρ' hpre hagree
  refine ⟨fun c => Cert.Joint.outSplit (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)), Cert.Joint.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨hE, hD, hW⟩ := Cert.Joint.Finite.allReal_of_finite_inputs _ _ _ _ _ _ (hpre c)
  rw [Cert.ReferenceIdeal.Read.val_main_v13_eq, Cert.Joint.Ref.ref_is_outJoint, (hagree c).1, (hagree c).2.1, (hagree c).2.2.1,
    (hagree c).2.2.2.1, (hagree c).2.2.2.2.1, (hagree c).2.2.2.2.2]
  exact (Cert.Joint.outSplit_eq_outJoint _ _ _ _ _ _ hE hD hW).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
